-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S4096x1024 : Shape := ⟨2, ![4096, 1024]⟩
abbrev S512x1024 : Shape := ⟨2, ![512, 1024]⟩
abbrev S512 : Shape := ⟨1, ![512]⟩
abbrev S32000x2048 : Shape := ⟨2, ![32000, 2048]⟩
abbrev S4096x2048 : Shape := ⟨2, ![4096, 2048]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S32000x2048 : S_.BroadcastsInDim S32000x2048 (![] : Fin 0 → Fin S32000x2048.rank)
  reducesTo_S32000x2048_S_d0_1 : S32000x2048.ReducesTo [0, 1] S_
  bcast_S_S4096x2048 : S_.BroadcastsInDim S4096x2048 (![] : Fin 0 → Fin S4096x2048.rank)
  reducesTo_S4096x2048_S_d0_1 : S4096x2048.ReducesTo [0, 1] S_
  bcast_S_S4096 : S_.BroadcastsInDim S4096 (![] : Fin 0 → Fin S4096.rank)
  reducesTo_S4096_S_d0 : S4096.ReducesTo [0] S_

variable [Facts]

def fn_part3 {F : FTy → Type} [FloatOps F] (main_arg12 : FVec F S4096 .f32) (main_v48 : IVec S_ 1) (main_v49 : FVec F S4096 .f32) (main_v50 : FVec F S4096 .f32) : IVec S_ 1 :=
  let main_v51 : IVec S4096 1 := cmpf .olt main_v49 main_v50
  let main_c_19 : IVec S_ 1 := constantI S_ 1 1#1
  let main_v52 : IVec S_ 1 := (fun x v => Host.reduce IntOp.andi x v reducesTo_S4096_S_d0 h_S_) main_v51 main_c_19
  let main_v53 : IVec S_ 1 := andi main_v48 main_v52
  let main_v54 : FVec F S4096 .f32 := Host.absf main_arg12
  let main_cst_20 : FVec F S_ .f32 := constant S_ .f32 0x7F800000#32
  let main_v55 : FVec F S4096 .f32 := broadcastInDim S4096 ![] bcast_S_S4096 main_cst_20
  let main_v56 : IVec S4096 1 := cmpf .olt main_v54 main_v55
  let main_c_21 : IVec S_ 1 := constantI S_ 1 1#1
  let main_v57 : IVec S_ 1 := (fun x v => Host.reduce IntOp.andi x v reducesTo_S4096_S_d0 h_S_) main_v56 main_c_21
  let main_v58 : IVec S_ 1 := andi main_v53 main_v57
  main_v58

def fn_part2 {F : FTy → Type} [FloatOps F] (main_arg8 : FVec F S4096 .f32) (main_arg9 : FVec F S4096x1024 .f32) (main_arg10 : FVec F S4096x1024 .f32) (main_arg11 : FVec F S4096 .f32) (main_arg12 : FVec F S4096 .f32) (main_v33 : IVec S_ 1) : IVec S_ 1 :=
  let main_v34 : FVec F S4096 .f32 := Host.absf main_arg8
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096x1024 .f32 := Host.absf main_arg9
  let main_cst_14 : FVec F S_ .f32 := constant S_ .f32 0x7F800000#32
  let main_v40 : FVec F S4096x1024 .f32 := broadcastInDim S4096x1024 ![] bcast_S_S4096x1024 main_cst_14
  let main_v41 : IVec S4096x1024 1 := cmpf .olt main_v39 main_v40
  let main_c_15 : IVec S_ 1 := constantI S_ 1 1#1
  let main_v42 : IVec S_ 1 := (fun x v => Host.reduce IntOp.andi x v reducesTo_S4096x1024_S_d0_1 h_S_) main_v41 main_c_15
  let main_v43 : IVec S_ 1 := andi main_v38 main_v42
  let main_v44 : FVec F S4096x1024 .f32 := Host.absf main_arg10
  let main_cst_16 : FVec F S_ .f32 := constant S_ .f32 0x7F800000#32
  let main_v45 : FVec F S4096x1024 .f32 := broadcastInDim S4096x1024 ![] bcast_S_S4096x1024 main_cst_16
  let main_v46 : IVec S4096x1024 1 := cmpf .olt main_v44 main_v45
  let main_c_17 : IVec S_ 1 := constantI S_ 1 1#1
  let main_v47 : IVec S_ 1 := (fun x v => Host.reduce IntOp.andi x v reducesTo_S4096x1024_S_d0_1 h_S_) main_v46 main_c_17
  let main_v48 : IVec S_ 1 := andi main_v43 main_v47
  let main_v49 : FVec F S4096 .f32 := Host.absf main_arg11
  let main_cst_18 : FVec F S_ .f32 := constant S_ .f32 0x7F800000#32
  let main_v50 : FVec F S4096 .f32 := broadcastInDim S4096 ![] bcast_S_S4096 main_cst_18
  fn_part3 (F := F) main_arg12 main_v48 main_v49 main_v50

def fn_part1 {F : FTy → Type} [FloatOps F] (main_arg5 : FVec F S4096x2048 .f32) (main_arg6 : FVec F S4096x1024 .f32) (main_arg7 : FVec F S4096 .f32) (main_arg8 : FVec F S4096 .f32) (main_arg9 : FVec F S4096x1024 .f32) (main_arg10 : FVec F S4096x1024 .f32) (main_arg11 : FVec F S4096 .f32) (main_arg12 : FVec F S4096 .f32) (main_v13 : IVec S_ 1) (main_v16 : IVec S32000x2048 1) : IVec S_ 1 :=
  let main_c_5 : IVec S_ 1 := constantI S_ 1 1#1
  let main_v17 : IVec S_ 1 := (fun x v => Host.reduce IntOp.andi x v reducesTo_S32000x2048_S_d0_1 h_S_) main_v16 main_c_5
  let main_v18 : IVec S_ 1 := andi main_v13 main_v17
  let main_v19 : FVec F S4096x2048 .f32 := Host.absf main_arg5
  let main_cst_6 : FVec F S_ .f32 := constant S_ .f32 0x7F800000#32
  let main_v20 : FVec F S4096x2048 .f32 := broadcastInDim S4096x2048 ![] bcast_S_S4096x2048 main_cst_6
  let main_v21 : IVec S4096x2048 1 := cmpf .olt main_v19 main_v20
  let main_c_7 : IVec S_ 1 := constantI S_ 1 1#1
  let main_v22 : IVec S_ 1 := (fun x v => Host.reduce IntOp.andi x v reducesTo_S4096x2048_S_d0_1 h_S_) main_v21 main_c_7
  let main_v23 : IVec S_ 1 := andi main_v18 main_v22
  let main_v24 : FVec F S4096x1024 .f32 := Host.absf main_arg6
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S4096 .f32 := Host.absf main_arg7
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg8 main_arg9 main_arg10 main_arg11 main_arg12 main_v33

def fn {F : FTy → Type} [FloatOps F] (main_arg0 : IVec S4096 32) (main_arg1 : FVec F S4096x1024 .f32) (main_arg2 : FVec F S512x1024 .f32) (main_arg3 : FVec F S512 .f32) (main_arg4 : FVec F S32000x2048 .f32) (main_arg5 : FVec F S4096x2048 .f32) (main_arg6 : FVec F S4096x1024 .f32) (main_arg7 : FVec F S4096 .f32) (main_arg8 : FVec F S4096 .f32) (main_arg9 : FVec F S4096x1024 .f32) (main_arg10 : FVec F S4096x1024 .f32) (main_arg11 : FVec F S4096 .f32) (main_arg12 : FVec F S4096 .f32) : IVec S_ 1 :=
  let main_v0 : FVec F S4096x1024 .f32 := Host.absf main_arg1
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S512x1024 .f32 := Host.absf main_arg2
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S32000x2048 .f32 := Host.absf main_arg4
  let main_cst_4 : FVec F S_ .f32 := constant S_ .f32 0x7F800000#32
  let main_v15 : FVec F S32000x2048 .f32 := broadcastInDim S32000x2048 ![] bcast_S_S32000x2048 main_cst_4
  let main_v16 : IVec S32000x2048 1 := cmpf .olt main_v14 main_v15
  fn_part1 (F := F) main_arg5 main_arg6 main_arg7 main_arg8 main_arg9 main_arg10 main_arg11 main_arg12 main_v13 main_v16
-- ==== Kernel.lean ====
abbrev S4096 : Shape := ⟨1, ![4096]⟩
abbrev S4096x1024 : Shape := ⟨2, ![4096, 1024]⟩
abbrev S512x1024 : Shape := ⟨2, ![512, 1024]⟩
abbrev S512 : Shape := ⟨1, ![512]⟩
abbrev S32000x2048 : Shape := ⟨2, ![32000, 2048]⟩
abbrev S4096x2048 : Shape := ⟨2, ![4096, 2048]⟩
abbrev S1x512 : Shape := ⟨2, ![1, 512]⟩
abbrev S1x4096 : Shape := ⟨2, ![1, 4096]⟩
abbrev S_ : Shape := ⟨0, ![]⟩
abbrev S4096x1 : Shape := ⟨2, ![4096, 1]⟩
abbrev S128x1024 : Shape := ⟨2, ![128, 1024]⟩
abbrev S128x2048 : Shape := ⟨2, ![128, 2048]⟩
abbrev S128x512 : Shape := ⟨2, ![128, 512]⟩
abbrev S128x4096 : Shape := ⟨2, ![128, 4096]⟩
abbrev S1x4096x1024 : Shape := ⟨3, ![1, 4096, 1024]⟩
abbrev S2x4096x1024 : Shape := ⟨3, ![2, 4096, 1024]⟩

abbrev nBuf : Space → Nat
  | .hbm => 41
  | .vmem => 26
  | .smem => 0
  | _ => 0

abbrev bufTy : (tb : Table) → Fin (tcTables nBuf tb) → BufTy
  | .hbm, ⟨0, _⟩ => ⟨S4096, .i32⟩
  | .hbm, ⟨1, _⟩ => ⟨S4096x1024, .f32⟩
  | .hbm, ⟨2, _⟩ => ⟨S512x1024, .f32⟩
  | .hbm, ⟨3, _⟩ => ⟨S512, .f32⟩
  | .hbm, ⟨4, _⟩ => ⟨S32000x2048, .f32⟩
  | .hbm, ⟨5, _⟩ => ⟨S4096x2048, .f32⟩
  | .hbm, ⟨6, _⟩ => ⟨S4096x1024, .f32⟩
  | .hbm, ⟨7, _⟩ => ⟨S4096, .f32⟩
  | .hbm, ⟨8, _⟩ => ⟨S4096, .f32⟩
  | .hbm, ⟨9, _⟩ => ⟨S4096x1024, .f32⟩
  | .hbm, ⟨10, _⟩ => ⟨S4096x1024, .f32⟩
  | .hbm, ⟨11, _⟩ => ⟨S4096, .f32⟩
  | .hbm, ⟨12, _⟩ => ⟨S4096, .f32⟩
  | .hbm, ⟨13, _⟩ => ⟨S512x1024, .bf16⟩
  | .hbm, ⟨14, _⟩ => ⟨S4096x2048, .bf16⟩
  | .hbm, ⟨15, _⟩ => ⟨S4096x1024, .bf16⟩
  | .hbm, ⟨16, _⟩ => ⟨S4096x1024, .bf16⟩
  | .hbm, ⟨17, _⟩ => ⟨S4096x1024, .bf16⟩
  | .hbm, ⟨18, _⟩ => ⟨S1x512, .f32⟩
  | .hbm, ⟨19, _⟩ => ⟨S1x4096, .f32⟩
  | .hbm, ⟨20, _⟩ => ⟨S1x4096, .f32⟩
  | .hbm, ⟨21, _⟩ => ⟨S1x4096, .f32⟩
  | .hbm, ⟨22, _⟩ => ⟨S1x4096, .f32⟩
  | .hbm, ⟨23, _⟩ => ⟨S4096x1024, .bf16⟩
  | .hbm, ⟨24, _⟩ => ⟨S_, .i32⟩
  | .hbm, ⟨25, _⟩ => ⟨S4096, .i32⟩
  | .hbm, ⟨26, _⟩ => ⟨S4096, .i1⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S4096, .i32⟩
  | .hbm, ⟨31, _⟩ => ⟨S4096x1, .i32⟩
  | .hbm, ⟨32, _⟩ => ⟨S4096x2048, .f32⟩
  | .hbm, ⟨33, _⟩ => ⟨S4096x2048, .bf16⟩
  | .hbm, ⟨34, _⟩ => ⟨S4096x1024, .f32⟩
  | .hbm, ⟨35, _⟩ => ⟨S4096x1024, .bf16⟩
  | .hbm, ⟨36, _⟩ => ⟨S4096x1024, .f32⟩
  | .hbm, ⟨37, _⟩ => ⟨S4096x1024, .f32⟩
  | .hbm, ⟨38, _⟩ => ⟨S1x4096x1024, .f32⟩
  | .hbm, ⟨39, _⟩ => ⟨S1x4096x1024, .f32⟩
  | .hbm, ⟨40, _⟩ => ⟨S2x4096x1024, .f32⟩
  | .local _ .vmem, ⟨0, _⟩ => ⟨S128x1024, .bf16⟩
  | .local _ .vmem, ⟨1, _⟩ => ⟨S128x1024, .bf16⟩
  | .local _ .vmem, ⟨2, _⟩ => ⟨S128x2048, .bf16⟩
  | .local _ .vmem, ⟨3, _⟩ => ⟨S128x2048, .bf16⟩
  | .local _ .vmem, ⟨4, _⟩ => ⟨S512x1024, .bf16⟩
  | .local _ .vmem, ⟨5, _⟩ => ⟨S1x512, .f32⟩
  | .local _ .vmem, ⟨6, _⟩ => ⟨S4096x2048, .bf16⟩
  | .local _ .vmem, ⟨7, _⟩ => ⟨S4096x1024, .bf16⟩
  | .local _ .vmem, ⟨8, _⟩ => ⟨S1x4096, .f32⟩
  | .local _ .vmem, ⟨9, _⟩ => ⟨S1x4096, .f32⟩
  | .local _ .vmem, ⟨10, _⟩ => ⟨S128x1024, .f32⟩
  | .local _ .vmem, ⟨11, _⟩ => ⟨S128x1024, .f32⟩
  | .local _ .vmem, ⟨12, _⟩ => ⟨S128x1024, .bf16⟩
  | .local _ .vmem, ⟨13, _⟩ => ⟨S128x1024, .bf16⟩
  | .local _ .vmem, ⟨14, _⟩ => ⟨S128x1024, .f32⟩
  | .local _ .vmem, ⟨15, _⟩ => ⟨S128x1024, .f32⟩
  | .local _ .vmem, ⟨16, _⟩ => ⟨S128x1024, .bf16⟩
  | .local _ .vmem, ⟨17, _⟩ => ⟨S128x1024, .bf16⟩
  | .local _ .vmem, ⟨18, _⟩ => ⟨S128x1024, .f32⟩
  | .local _ .vmem, ⟨19, _⟩ => ⟨S128x1024, .f32⟩
  | .local _ .vmem, ⟨20, _⟩ => ⟨S4096x1024, .bf16⟩
  | .local _ .vmem, ⟨21, _⟩ => ⟨S4096x1024, .bf16⟩
  | .local _ .vmem, ⟨22, _⟩ => ⟨S1x4096, .f32⟩
  | .local _ .vmem, ⟨23, _⟩ => ⟨S1x4096, .f32⟩
  | .local _ .vmem, ⟨24, _⟩ => ⟨S128x1024, .f32⟩
  | .local _ .vmem, ⟨25, _⟩ => ⟨S128x1024, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19_0 : Ref sig .tc := ⟨.hbm, 34, rfl⟩
abbrev main_v19_1 : Ref sig .tc := ⟨.hbm, 35, rfl⟩
abbrev main_v19_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg6_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem6_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4096x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4096x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x4096 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S128x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bitsLt_bf16_f32 : FTy.bits .bf16 < FTy.bits .f32
  shapeCasts_S512_S1x512 : S512.ShapeCasts S1x512
  shapeCasts_S4096_S1x4096 : S4096.ShapeCasts S1x4096
  bcast_S_S4096 : S_.BroadcastsInDim S4096 (![] : Fin 0 → Fin S4096.rank)
  bcast_S4096_S4096x1_0 : S4096.BroadcastsInDim S4096x1 (![0] : Fin 1 → Fin S4096x1.rank)
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S128x512 : S1x512.Broadcasts S128x512
  concatenates_S128x512_S128x512_S128x1024_d1 : Shape.Concatenates [S128x512, S128x512] S128x1024 1
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S4096x2048_S4096x2048_0_0 : ∀ a, (![0, 0] : Fin 2 → Nat) a + S4096x2048.size a ≤ S4096x2048.size a
  h_S4096x2048 : 0 < S4096x2048.numel
  shapeCasts_S4096x2048_S4096x2048 : S4096x2048.ShapeCasts S4096x2048
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  packedbf16_S128x1024_S128x1024_0_0 : (Rect.unit (s := S128x1024) ![0, 0] S128x1024.size inb_S128x1024_S128x1024_0_0).PackedRows (EltTy.packing .bf16)
  bcast_S4096x1024_S1x4096x1024_1_2 : S4096x1024.BroadcastsInDim S1x4096x1024 (![1, 2] : Fin 2 → Fin S1x4096x1024.rank)
  concatenates_S1x4096x1024_S1x4096x1024_S2x4096x1024_d0 : Shape.Concatenates [S1x4096x1024, S1x4096x1024] S2x4096x1024 0
  gather_S32000x2048_S4096x1_S4096x2048_1_0_n_n_0_1_12048_wf : GatherDims.WF S32000x2048 S4096x1 S4096x2048 [1] [0] [] [0] [] 1 ![1, 2048]
  dot_S128x1024_S512x1024_S128x512_1_1_0_0_n_n_wf : DotDims.WF S128x1024 S512x1024 S128x512 [1] [1] [0] [0] [] []
  dot_S128x2048_S4096x2048_S128x4096_1_1_0_0_n_n_wf : DotDims.WF S128x2048 S4096x2048 S128x4096 [1] [1] [0] [0] [] []
  dot_S128x1024_S4096x1024_S128x4096_1_1_0_0_n_n_wf : DotDims.WF S128x1024 S4096x1024 S128x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S4096x1024.size a
  hwx0_0 : ∀ i : grid0.Coords, EltTy.bits .bf16 = 32 ∨ (Rect.block (s := S4096x1024) S128x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S4096x2048.size a
  hwx0_1 : ∀ i : grid0.Coords, EltTy.bits .bf16 = 32 ∨ (Rect.block (s := S4096x2048) S128x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .bf16 = 32 ∨ (Rect.block (s := S512x1024) S512x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x2048.size a ≤ S4096x2048.size a
  hwx0_4 : ∀ i : grid0.Coords, EltTy.bits .bf16 = 32 ∨ (Rect.block (s := S4096x2048) S4096x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096x1024.size a ≤ S4096x1024.size a
  hwx0_5 : ∀ i : grid0.Coords, EltTy.bits .bf16 = 32 ∨ (Rect.block (s := S4096x1024) S4096x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x4096.size a ≤ S1x4096.size a
  hwx0_7 : ∀ i : grid0.Coords, EltTy.bits .f32 = 32 ∨ (Rect.block (s := S1x4096) S1x4096.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x1024.size a ≤ S4096x1024.size a
  hwx0_8 : ∀ i : grid0.Coords, EltTy.bits .f32 = 32 ∨ (Rect.block (s := S4096x1024) S128x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x1024.size a ≤ S4096x1024.size a
  hwx0_9 : ∀ i : grid0.Coords, EltTy.bits .bf16 = 32 ∨ (Rect.block (s := S4096x1024) S128x1024.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x1024.size a ≤ S4096x1024.size a
  hwx0_10 : ∀ i : grid0.Coords, EltTy.bits .f32 = 32 ∨ (Rect.block (s := S4096x1024) S128x1024.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x1024.size a ≤ S4096x1024.size a
  hwx1_0 : ∀ i : grid1.Coords, EltTy.bits .bf16 = 32 ∨ (Rect.block (s := S4096x1024) S128x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x1024.size a ≤ S4096x1024.size a
  hwx1_1 : ∀ i : grid1.Coords, EltTy.bits .f32 = 32 ∨ (Rect.block (s := S4096x1024) S128x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x1024.size a ≤ S4096x1024.size a
  hwx1_2 : ∀ i : grid1.Coords, EltTy.bits .bf16 = 32 ∨ (Rect.block (s := S4096x1024) S4096x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096x1024.size a ≤ S4096x1024.size a
  hwx1_3 : ∀ i : grid1.Coords, EltTy.bits .bf16 = 32 ∨ (Rect.block (s := S4096x1024) S4096x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x4096.size a ≤ S1x4096.size a
  hwx1_4 : ∀ i : grid1.Coords, EltTy.bits .f32 = 32 ∨ (Rect.block (s := S1x4096) S1x4096.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x4096.size a ≤ S1x4096.size a
  hwx1_5 : ∀ i : grid1.Coords, EltTy.bits .f32 = 32 ∨ (Rect.block (s := S1x4096) S1x4096.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S128x1024.size a ≤ S4096x1024.size a
  hwx1_6 : ∀ i : grid1.Coords, EltTy.bits .f32 = 32 ∨ (Rect.block (s := S4096x1024) S128x1024.size (cc1_transform_6 i) (hinb1_6 i)).WholeWords (EltTy.packing .f32)

variable [Facts₀]

def gather_S32000x2048_S4096x1_S4096x2048_1_0_n_n_0_1_12048 : GatherDims S32000x2048 S4096x1 S4096x2048 where
  offsetDims := [1]
  collapsedSliceDims := [0]
  operandBatchingDims := []
  startIndicesBatchingDims := []
  startIndexMap := [0]
  indexVectorDim := 1
  sliceSizes := ![1, 2048]
  wf := gather_S32000x2048_S4096x1_S4096x2048_1_0_n_n_0_1_12048_wf
def dot_S128x1024_S512x1024_S128x512_1_1_0_0_n_n : DotDims S128x1024 S512x1024 S128x512 where
  lhsContracting := [1]
  rhsContracting := [1]
  lhsNonContracting := [0]
  rhsNonContracting := [0]
  lhsBatch := []
  rhsBatch := []
  wf := dot_S128x1024_S512x1024_S128x512_1_1_0_0_n_n_wf
def dot_S128x2048_S4096x2048_S128x4096_1_1_0_0_n_n : DotDims S128x2048 S4096x2048 S128x4096 where
  lhsContracting := [1]
  rhsContracting := [1]
  lhsNonContracting := [0]
  rhsNonContracting := [0]
  lhsBatch := []
  rhsBatch := []
  wf := dot_S128x2048_S4096x2048_S128x4096_1_1_0_0_n_n_wf
def dot_S128x1024_S4096x1024_S128x4096_1_1_0_0_n_n : DotDims S128x1024 S4096x1024 S128x4096 where
  lhsContracting := [1]
  rhsContracting := [1]
  lhsNonContracting := [0]
  rhsNonContracting := [0]
  lhsBatch := []
  rhsBatch := []
  wf := dot_S128x1024_S4096x1024_S128x4096_1_1_0_0_n_n_wf

abbrev win0_0 : Pipeline.Window sig grid0 :=
  Pipeline.Window.ofSpec (Memref.whole main_v10) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S4096x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S4096x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x4096.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v19_0) S128x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v19_1) S128x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v19_2) S128x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v19_1) S128x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19_2) S128x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S4096x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S4096x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1x4096.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S1x4096.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v20) S128x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S4096 : Shape := ⟨1, ![4096]⟩
abbrev S4096x1024 : Shape := ⟨2, ![4096, 1024]⟩
abbrev S512x1024 : Shape := ⟨2, ![512, 1024]⟩
abbrev S512 : Shape := ⟨1, ![512]⟩
abbrev S32000x2048 : Shape := ⟨2, ![32000, 2048]⟩
abbrev S4096x2048 : Shape := ⟨2, ![4096, 2048]⟩
abbrev S1024x512 : Shape := ⟨2, ![1024, 512]⟩
abbrev S4096x512 : Shape := ⟨2, ![4096, 512]⟩
abbrev S1x512 : Shape := ⟨2, ![1, 512]⟩
abbrev S_ : Shape := ⟨0, ![]⟩
abbrev S4096x1 : Shape := ⟨2, ![4096, 1]⟩
abbrev S2048x4096 : Shape := ⟨2, ![2048, 4096]⟩
abbrev S4096x4096 : Shape := ⟨2, ![4096, 4096]⟩
abbrev S1024x4096 : Shape := ⟨2, ![1024, 4096]⟩
abbrev S1x4096 : Shape := ⟨2, ![1, 4096]⟩
abbrev S1x4096x1024 : Shape := ⟨3, ![1, 4096, 1024]⟩
abbrev S2x4096x1024 : Shape := ⟨3, ![2, 4096, 1024]⟩

abbrev nBuf : Space → Nat
  | .hbm => 121
  | .vmem => 0
  | .smem => 0
  | _ => 0

abbrev bufTy : (tb : Table) → Fin (tcTables nBuf tb) → BufTy
  | .hbm, ⟨0, _⟩ => ⟨S4096, .i32⟩
  | .hbm, ⟨1, _⟩ => ⟨S4096x1024, .f32⟩
  | .hbm, ⟨2, _⟩ => ⟨S512x1024, .f32⟩
  | .hbm, ⟨3, _⟩ => ⟨S512, .f32⟩
  | .hbm, ⟨4, _⟩ => ⟨S32000x2048, .f32⟩
  | .hbm, ⟨5, _⟩ => ⟨S4096x2048, .f32⟩
  | .hbm, ⟨6, _⟩ => ⟨S4096x1024, .f32⟩
  | .hbm, ⟨7, _⟩ => ⟨S4096, .f32⟩
  | .hbm, ⟨8, _⟩ => ⟨S4096, .f32⟩
  | .hbm, ⟨9, _⟩ => ⟨S4096x1024, .f32⟩
  | .hbm, ⟨10, _⟩ => ⟨S4096x1024, .f32⟩
  | .hbm, ⟨11, _⟩ => ⟨S4096, .f32⟩
  | .hbm, ⟨12, _⟩ => ⟨S4096, .f32⟩
  | .hbm, ⟨13, _⟩ => ⟨S1024x512, .f32⟩
  | .hbm, ⟨14, _⟩ => ⟨S4096x512, .f32⟩
  | .hbm, ⟨15, _⟩ => ⟨S1x512, .f32⟩
  | .hbm, ⟨16, _⟩ => ⟨S4096x512, .f32⟩
  | .hbm, ⟨17, _⟩ => ⟨S4096x512, .f32⟩
  | .hbm, ⟨18, _⟩ => ⟨S4096x1024, .f32⟩
  | .hbm, ⟨19, _⟩ => ⟨S_, .i32⟩
  | .hbm, ⟨20, _⟩ => ⟨S4096, .i32⟩
  | .hbm, ⟨21, _⟩ => ⟨S4096, .i1⟩
  | .hbm, ⟨22, _⟩ => ⟨S_, .i32⟩
  | .hbm, ⟨23, _⟩ => ⟨S4096, .i32⟩
  | .hbm, ⟨24, _⟩ => ⟨S4096, .i32⟩
  | .hbm, ⟨25, _⟩ => ⟨S4096, .i32⟩
  | .hbm, ⟨26, _⟩ => ⟨S4096x1, .i32⟩
  | .hbm, ⟨27, _⟩ => ⟨S4096x2048, .f32⟩
  | .hbm, ⟨28, _⟩ => ⟨S2048x4096, .f32⟩
  | .hbm, ⟨29, _⟩ => ⟨S4096x4096, .f32⟩
  | .hbm, ⟨30, _⟩ => ⟨S1024x4096, .f32⟩
  | .hbm, ⟨31, _⟩ => ⟨S4096x4096, .f32⟩
  | .hbm, ⟨32, _⟩ => ⟨S4096x4096, .f32⟩
  | .hbm, ⟨33, _⟩ => ⟨S1x4096, .f32⟩
  | .hbm, ⟨34, _⟩ => ⟨S4096x4096, .f32⟩
  | .hbm, ⟨35, _⟩ => ⟨S4096x4096, .f32⟩
  | .hbm, ⟨36, _⟩ => ⟨S1x4096, .f32⟩
  | .hbm, ⟨37, _⟩ => ⟨S4096x4096, .f32⟩
  | .hbm, ⟨38, _⟩ => ⟨S4096x4096, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S1024x4096, .f32⟩
  | .hbm, ⟨74, _⟩ => ⟨S4096x4096, .f32⟩
  | .hbm, ⟨75, _⟩ => ⟨S1024x4096, .f32⟩
  | .hbm, ⟨76, _⟩ => ⟨S4096x4096, .f32⟩
  | .hbm, ⟨77, _⟩ => ⟨S4096x4096, .f32⟩
  | .hbm, ⟨78, _⟩ => ⟨S1x4096, .f32⟩
  | .hbm, ⟨79, _⟩ => ⟨S4096x4096, .f32⟩
  | .hbm, ⟨80, _⟩ => ⟨S4096x4096, .f32⟩
  | .hbm, ⟨81, _⟩ => ⟨S1x4096, .f32⟩
  | .hbm, ⟨82, _⟩ => ⟨S4096x4096, .f32⟩
  | .hbm, ⟨83, _⟩ => ⟨S4096x4096, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S_, .f32⟩
  | .hbm, ⟨91, _⟩ => ⟨S4096x1024, .f32⟩
  | .hbm, ⟨92, _⟩ => ⟨S4096x1024, .f32⟩
  | .hbm, ⟨93, _⟩ => ⟨S_, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S_, .f32⟩
  | .hbm, ⟨99, _⟩ => ⟨S4096x1024, .f32⟩
  | .hbm, ⟨100, _⟩ => ⟨S4096x1024, .f32⟩
  | .hbm, ⟨101, _⟩ => ⟨S_, .f32⟩
  | .hbm, ⟨102, _⟩ => ⟨S4096x1024, .f32⟩
  | .hbm, ⟨103, _⟩ => ⟨S4096x1024, .f32⟩
  | .hbm, ⟨104, _⟩ => ⟨S4096x1024, .f32⟩
  | .hbm, ⟨105, _⟩ => ⟨S4096x1024, .f32⟩
  | .hbm, ⟨106, _⟩ => ⟨S_, .f32⟩
  | .hbm, ⟨107, _⟩ => ⟨S4096x1024, .f32⟩
  | .hbm, ⟨108, _⟩ => ⟨S4096x1024, .f32⟩
  | .hbm, ⟨109, _⟩ => ⟨S_, .f32⟩
  | .hbm, ⟨110, _⟩ => ⟨S4096x1024, .f32⟩
  | .hbm, ⟨111, _⟩ => ⟨S4096x1024, .f32⟩
  | .hbm, ⟨112, _⟩ => ⟨S4096x1024, .f32⟩
  | .hbm, ⟨113, _⟩ => ⟨S4096x1024, .f32⟩
  | .hbm, ⟨114, _⟩ => ⟨S4096x1024, .f32⟩
  | .hbm, ⟨115, _⟩ => ⟨S4096x1024, .f32⟩
  | .hbm, ⟨116, _⟩ => ⟨S4096x1024, .f32⟩
  | .hbm, ⟨117, _⟩ => ⟨S4096x1024, .f32⟩
  | .hbm, ⟨118, _⟩ => ⟨S1x4096x1024, .f32⟩
  | .hbm, ⟨119, _⟩ => ⟨S1x4096x1024, .f32⟩
  | .hbm, ⟨120, _⟩ => ⟨S2x4096x1024, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_c_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst : Ref sig .tc := ⟨.hbm, 45, rfl⟩
abbrev main_v30 : Ref sig .tc := ⟨.hbm, 46, rfl⟩
abbrev main_v31 : Ref sig .tc := ⟨.hbm, 47, rfl⟩
abbrev main_cst_1 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_2 : Ref sig .tc := ⟨.hbm, 53, rfl⟩
abbrev main_v36 : Ref sig .tc := ⟨.hbm, 54, rfl⟩
abbrev main_v37 : Ref sig .tc := ⟨.hbm, 55, rfl⟩
abbrev main_cst_3 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_4 : Ref sig .tc := ⟨.hbm, 61, rfl⟩
abbrev main_v42 : Ref sig .tc := ⟨.hbm, 62, rfl⟩
abbrev main_v43 : Ref sig .tc := ⟨.hbm, 63, rfl⟩
abbrev main_cst_5 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_6 : Ref sig .tc := ⟨.hbm, 90, rfl⟩
abbrev main_v69 : Ref sig .tc := ⟨.hbm, 91, rfl⟩
abbrev main_v70 : Ref sig .tc := ⟨.hbm, 92, rfl⟩
abbrev main_cst_7 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_8 : Ref sig .tc := ⟨.hbm, 98, rfl⟩
abbrev main_v75 : Ref sig .tc := ⟨.hbm, 99, rfl⟩
abbrev main_v76 : Ref sig .tc := ⟨.hbm, 100, rfl⟩
abbrev main_cst_9 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_10 : Ref sig .tc := ⟨.hbm, 106, rfl⟩
abbrev main_v81 : Ref sig .tc := ⟨.hbm, 107, rfl⟩
abbrev main_v82 : Ref sig .tc := ⟨.hbm, 108, rfl⟩
abbrev main_cst_11 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩

abbrev nD : Nat := 1
abbrev τ : Topo := Topo.v7x

variable {F : FTy → Type} [FloatOps F]

class Facts₀ : Prop where
  transposes_S512x1024_S1024x512_1_0 : S512x1024.Transposes [1, 0] S1024x512
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  concatenates_S4096x512_S4096x512_S4096x1024_d1 : Shape.Concatenates [S4096x512, S4096x512] S4096x1024 1
  bcast_S_S4096 : S_.BroadcastsInDim S4096 (![] : Fin 0 → Fin S4096.rank)
  bcast_S4096_S4096x1_0 : S4096.BroadcastsInDim S4096x1 (![0] : Fin 1 → Fin S4096x1.rank)
  transposes_S4096x2048_S2048x4096_1_0 : S4096x2048.Transposes [1, 0] S2048x4096
  transposes_S4096x1024_S1024x4096_1_0 : S4096x1024.Transposes [1, 0] S1024x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S_S4096x1024 : S_.BroadcastsInDim S4096x1024 (![] : Fin 0 → Fin S4096x1024.rank)
  bcast_S4096x1024_S1x4096x1024_1_2 : S4096x1024.BroadcastsInDim S1x4096x1024 (![1, 2] : Fin 2 → Fin S1x4096x1024.rank)
  concatenates_S1x4096x1024_S1x4096x1024_S2x4096x1024_d0 : Shape.Concatenates [S1x4096x1024, S1x4096x1024] S2x4096x1024 0
  dot_S4096x1024_S1024x512_S4096x512_1_0_0_1_n_n_wf : DotDims.WF S4096x1024 S1024x512 S4096x512 [1] [0] [0] [1] [] []
  gather_S32000x2048_S4096x1_S4096x2048_1_0_n_n_0_1_12048_wf : GatherDims.WF S32000x2048 S4096x1 S4096x2048 [1] [0] [] [0] [] 1 ![1, 2048]
  dot_S4096x2048_S2048x4096_S4096x4096_1_0_0_1_n_n_wf : DotDims.WF S4096x2048 S2048x4096 S4096x4096 [1] [0] [0] [1] [] []
  dot_S4096x1024_S1024x4096_S4096x4096_1_0_0_1_n_n_wf : DotDims.WF S4096x1024 S1024x4096 S4096x4096 [1] [0] [0] [1] [] []

variable [Facts₀]

def dot_S4096x1024_S1024x512_S4096x512_1_0_0_1_n_n : DotDims S4096x1024 S1024x512 S4096x512 where
  lhsContracting := [1]
  rhsContracting := [0]
  lhsNonContracting := [0]
  rhsNonContracting := [1]
  lhsBatch := []
  rhsBatch := []
  wf := dot_S4096x1024_S1024x512_S4096x512_1_0_0_1_n_n_wf
def gather_S32000x2048_S4096x1_S4096x2048_1_0_n_n_0_1_12048 : GatherDims S32000x2048 S4096x1 S4096x2048 where
  offsetDims := [1]
  collapsedSliceDims := [0]
  operandBatchingDims := []
  startIndicesBatchingDims := []
  startIndexMap := [0]
  indexVectorDim := 1
  sliceSizes := ![1, 2048]
  wf := gather_S32000x2048_S4096x1_S4096x2048_1_0_n_n_0_1_12048_wf
def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.KRun.lean ====
/-
  The idealized kernel's run with its results named.

  The program is four segments: the host operations before the first region, the two regions, the host operations
  after the second. Every weakly fair execution from a memory with zero counters terminates without a fault, and in
  the final state every unscoped buffer holds the contents the segments' fold leaves at the last boundary; read at the
  two result buffers and at the thirteen arguments (which no segment writes), that is the statement below.
-/
import proofs.«137373_j18124761989796_2_alg».proof.Proof.Gen.KernelIdeal.Frame

set_option maxRecDepth 16384

noncomputable section

namespace Cert.KernelIdeal.RunV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; both results end at the last boundary's contents and the
    arguments end as launched. -/
theorem run : θ_run defs (onTc (τ := τ) (main (F := F))) ⟨m, fun _ => 0, ρ⟩ (fun r => ∀ c : Dev nD,
      r.2.mem ((c.tc : Thread nD τ).loc main_v20) = W4 m ρ c (Proc.devRef .tc main_v20)
      ∧ r.2.mem ((c.tc : Thread nD τ).loc main_v23) = W4 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v20 (by decide)),
       h c _ (mem_uc main_v23 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c)⟩)

end Cert.KernelIdeal.RunV

end
-- ==== Proof.Cell.lean ====
/-
  One batch row of the two-layer recurrent step, as functions on the extended reals.

  A batch row carries an encoder state `e : Fin 1024 → EReal` and an input row `x : Fin K → EReal`.
  * The bridge maps the encoder state to 512 numbers, `bridge e W b j = Σ_k e k · W j k + b j`, and the initial
    hidden and memory state is that vector written twice, `tile v n = v (n mod 512)`.
  * A cell's pre-activation for gate column `g < 4096` is
    `pre x h Wx Wh bx bh g = (Σ_k x k · Wx g k + Σ_k h k · Wh g k) + bx g + bh g`;
    columns `n`, `1024 + n`, `2048 + n`, `3072 + n` are the input, forget, candidate and output gates of unit `n`.
  * The new hidden state of unit `n` from hidden state `h` and memory `c` is
    `σ(out) · tanh (σ(forget) · c n + σ(input) · tanh (candidate))`.
  Nothing here needs a finite value: every equation between the two programs is an equation of these terms.
-/
import Idealize.ShloMosaic.PureOps.Ideal
import Idealize.ShloMosaic.Lib.ValueIdx

noncomputable section

namespace Cert.Cell

open Idealize.ShloMosaic
open scoped BigOperators

/-- The bridge: a linear map of the encoder row plus a bias, 1024 → 512. -/
def bridge (e : Fin 1024 → EReal) (W : Fin 512 → Fin 1024 → EReal) (b : Fin 512 → EReal) (j : Fin 512) : EReal :=
  (∑ k : Fin 1024, e k * W j k) + b j

/-- Column `n` of a 1024-wide row that is a 512-wide row written twice. -/
def half (n : Fin 1024) : Fin 512 := ⟨n.val % 512, Nat.mod_lt _ (by norm_num)⟩

/-- A 512-wide row written twice. -/
def tile (v : Fin 512 → EReal) (n : Fin 1024) : EReal := v (half n)

/-- The initial hidden (and memory) row of a batch row: the bridge's output written twice. -/
def init (e : Fin 1024 → EReal) (W : Fin 512 → Fin 1024 → EReal) (b : Fin 512 → EReal) : Fin 1024 → EReal :=
  tile (bridge e W b)

/-- Gate column `g` before its nonlinearity. -/
def pre {K : Nat} (x : Fin K → EReal) (h : Fin 1024 → EReal) (Wx : Fin 4096 → Fin K → EReal)
    (Wh : Fin 4096 → Fin 1024 → EReal) (bx bh : Fin 4096 → EReal) (g : Fin 4096) : EReal :=
  ((∑ k : Fin K, x k * Wx g k) + (∑ k : Fin 1024, h k * Wh g k)) + bx g + bh g

/-- The four gate columns of unit `n`. -/
def gi (n : Fin 1024) : Fin 4096 := ⟨n.val, by have := n.isLt; omega⟩
def gf (n : Fin 1024) : Fin 4096 := ⟨1024 + n.val, by have := n.isLt; omega⟩
def gg (n : Fin 1024) : Fin 4096 := ⟨2048 + n.val, by have := n.isLt; omega⟩
def go (n : Fin 1024) : Fin 4096 := ⟨3072 + n.val, by have := n.isLt; omega⟩

/-- The new hidden state of unit `n` given the four pre-activations as a function `p` of the gate column and the
    memory row `c`. -/
def out (p : Fin 4096 → EReal) (c : Fin 1024 → EReal) (n : Fin 1024) : EReal :=
  Ideal.logistic (p (go n)) * Ideal.tanh (Ideal.logistic (p (gf n)) * c n + Ideal.logistic (p (gi n)) * Ideal.tanh (p (gg n)))

/-- One cell: the new hidden row from the input row `x`, with hidden and memory rows both `h`. -/
def cell {K : Nat} (x : Fin K → EReal) (h : Fin 1024 → EReal) (Wx : Fin 4096 → Fin K → EReal)
    (Wh : Fin 4096 → Fin 1024 → EReal) (bx bh : Fin 4096 → EReal) : Fin 1024 → EReal :=
  out (pre x h Wx Wh bx bh) h

/-! ## Arrays as rows

A matrix held as an array indexed by coordinates is read one row at a time; a bias held as a one-row matrix
or as a vector is read as a function of its column. -/

open ValueIdx

/-- Row `r` of an `A × B` array; with `r` left out, the array as a function of row and column. -/
def row {A B : Nat} (a : (⟨2, ![A, B]⟩ : Shape).Idx → EReal) (r : Fin A) : Fin B → EReal := fun k => a (ix2 r k)

/-- A vector held as an array. -/
def vec {A : Nat} (a : (⟨1, ![A]⟩ : Shape).Idx → EReal) : Fin A → EReal := fun g => a (ix1 g)

/-- A one-row matrix read as a vector. -/
def rvec {A : Nat} (a : (⟨2, ![1, A]⟩ : Shape).Idx → EReal) : Fin A → EReal := fun g => a (ix2 0 g)

/-! ## The three arrays the step computes, row by row

`e` the encoder states, `W`, `b` the bridge, `x` the input rows, then each cell's two weight matrices and two biases. -/

/-- The initial state of batch row `r`. -/
def H0 (e : (⟨2, ![4096, 1024]⟩ : Shape).Idx → EReal) (W : (⟨2, ![512, 1024]⟩ : Shape).Idx → EReal)
    (b : (⟨1, ![512]⟩ : Shape).Idx → EReal) (r : Fin 4096) : Fin 1024 → EReal :=
  init (row e r) (row W) (vec b)

/-- The first cell's new hidden state of batch row `r`. -/
def H1 (x : (⟨2, ![4096, 2048]⟩ : Shape).Idx → EReal) (e : (⟨2, ![4096, 1024]⟩ : Shape).Idx → EReal)
    (W : (⟨2, ![512, 1024]⟩ : Shape).Idx → EReal) (b : (⟨1, ![512]⟩ : Shape).Idx → EReal)
    (Wx : (⟨2, ![4096, 2048]⟩ : Shape).Idx → EReal) (Wh : (⟨2, ![4096, 1024]⟩ : Shape).Idx → EReal)
    (bx bh : (⟨1, ![4096]⟩ : Shape).Idx → EReal) (r : Fin 4096) : Fin 1024 → EReal :=
  cell (row x r) (H0 e W b r) (row Wx) (row Wh) (vec bx) (vec bh)

/-- The second cell's new hidden state of batch row `r`: its input is the first cell's, its state the initial one. -/
def H2 (x : (⟨2, ![4096, 2048]⟩ : Shape).Idx → EReal) (e : (⟨2, ![4096, 1024]⟩ : Shape).Idx → EReal)
    (W : (⟨2, ![512, 1024]⟩ : Shape).Idx → EReal) (b : (⟨1, ![512]⟩ : Shape).Idx → EReal)
    (Wx : (⟨2, ![4096, 2048]⟩ : Shape).Idx → EReal) (Wh : (⟨2, ![4096, 1024]⟩ : Shape).Idx → EReal)
    (bx bh : (⟨1, ![4096]⟩ : Shape).Idx → EReal)
    (Wx' Wh' : (⟨2, ![4096, 1024]⟩ : Shape).Idx → EReal) (bx' bh' : (⟨1, ![4096]⟩ : Shape).Idx → EReal)
    (r : Fin 4096) : Fin 1024 → EReal :=
  cell (H1 x e W b Wx Wh bx bh r) (H0 e W b r) (row Wx') (row Wh') (vec bx') (vec bh')

end Cert.Cell

end
-- ==== Proof.LibRow.lean ====
/-
  A vector read as a row. For a vector x of length b, the cast of x to shape [1, b] and the broadcast of x
  along axis 1 into shape [1, b] are the same array: entry (0, q) of either is x(q). Stated for any element
  type and any length.
-/
import Idealize.ShloMosaic.Lib.Pipeline.Value
import Idealize.ShloMosaic.Lib.ValueIdx

namespace Cert.LibRow

open Idealize.ShloMosaic Idealize.ShloMosaic.ValueIdx

variable {α : Type}

/-- Entry (0, q) of the cast of a length-b vector to shape [1, b] is the vector's entry q. -/
theorem shapeCast_row_apply {b : ℕ} (x : (⟨1, ![b]⟩ : Shape).Idx → α)
    (h : (⟨1, ![b]⟩ : Shape).ShapeCasts ⟨2, ![1, b]⟩) (j : (⟨2, ![1, b]⟩ : Shape).Idx) :
    shapeCast ⟨2, ![1, b]⟩ x h j = x (fun a => j a.succ) :=
  shapeCast_addUnit_apply ![b] x h j

/-- Entry (0, q) of the broadcast of a length-b vector along axis 1 into shape [1, b] is the vector's entry q. -/
theorem broadcastInDim_row_apply {b : ℕ} (x : (⟨1, ![b]⟩ : Shape).Idx → α)
    (hb : (⟨1, ![b]⟩ : Shape).BroadcastsInDim ⟨2, ![1, b]⟩ ![1]) (j : (⟨2, ![1, b]⟩ : Shape).Idx) :
    broadcastInDim ⟨2, ![1, b]⟩ ![1] hb x j = x (fun a => j a.succ) := by
  refine broadcastInDim_apply ![1] hb x j (fun a => j a.succ) ?_
  intro d
  match d with
  | ⟨0, _⟩ =>
    show (j 1).val = if b = 1 then 0 else (j 1).val
    split_ifs with hb1
    · have := (j 1).isLt
      simp only [Matrix.cons_val_one, Matrix.cons_val_zero] at this
      omega
    · rfl

/-- The cast to a row and the broadcast to a row are one array. -/
theorem shapeCast_row_eq_broadcastInDim {b : ℕ} (x : (⟨1, ![b]⟩ : Shape).Idx → α)
    (h : (⟨1, ![b]⟩ : Shape).ShapeCasts ⟨2, ![1, b]⟩)
    (hb : (⟨1, ![b]⟩ : Shape).BroadcastsInDim ⟨2, ![1, b]⟩ ![1]) :
    shapeCast ⟨2, ![1, b]⟩ x h = broadcastInDim ⟨2, ![1, b]⟩ ![1] hb x :=
  funext fun j => (shapeCast_row_apply x h j).trans (broadcastInDim_row_apply x hb j).symm

end Cert.LibRow
-- ==== Proof.Entry.lean ====
/-
  The arrays the two regions find when they are entered, in terms of the argument arrays.

  Before the first region the host only changes float formats (the identity on the extended reals), reshapes each
  bias vector into a one-row matrix, and looks the input rows up in the embedding table. So each weight matrix is
  the argument itself, each one-row bias read as a vector is the argument vector, and the input rows are the
  looked-up rows `X` of the table.
-/
import proofs.«137373_j18124761989796_2_alg».proof.Proof.Gen.KernelIdeal.Frame
import proofs.«137373_j18124761989796_2_alg».proof.Proof.Cell
import proofs.«137373_j18124761989796_2_alg».proof.Proof.LibRow
import Idealize.ShloMosaic.Lib.StableHlo.Run
import Idealize.ShloMosaic.Lib.ValueIdx

set_option maxRecDepth 16384

noncomputable section

namespace Cert.KernelIdeal.Entry

open Idealize.ShloMosaic Idealize.ShloMosaic.TcCoe Idealize.ShloMosaic.Tactic Idealize.SL.Sem Idealize.ShloMosaic.StableHlo
open Idealize.ShloMosaic.ValueIdx
open Cert.KernelIdeal Cert.KernelIdeal.Gen

/-- The input rows: row `b` is the embedding table's row at token `b`'s index, a negative index counted from the
    table's end. Kept as one function of the token indices and the table. -/
def X (a0 : (⟨S4096, .i32⟩ : BufTy).Contents (Elt Ideal)) (a4 : (⟨S32000x2048, .f32⟩ : BufTy).Contents (Elt Ideal)) :
    (⟨S4096x2048, .f32⟩ : BufTy).Contents (Elt Ideal) :=
  Host.gather gather_S32000x2048_S4096x1_S4096x2048_1_0_n_n_0_1_12048 a4
    (broadcastInDim S4096x1 ![0] bcast_S4096_S4096x1_0
      (select (cmpi .slt a0 (broadcastInDim S4096 ![] bcast_S_S4096 (constantI S_ 32 0#32)))
        (addi a0 (broadcastInDim S4096 ![] bcast_S_S4096 (constantI S_ 32 32000#32))) a0))

variable (m : (ℓ : Loc nD τ sig) → Buf (Elt Ideal) ℓ) (ρ : Dev nD → PrngReg)

/-- The input rows as the first region finds them. -/
theorem x_eq (c : Dev nD) :
    (V1 m ρ c main_v18 : S4096x2048.Idx → EReal) = X (m ((c.tc : Thread nD τ).loc main_arg0)) (m ((c.tc : Thread nD τ).loc main_arg4)) := by
  show StableHlo.after hostOps0 (W0 m ρ c) (Proc.devRef .tc main_v18) = _
  after_results
  rfl

/-- `main_v10` is `main_arg1` in another float format: the same extended reals. -/
theorem v10_eq (c : Dev nD) :
    (V1 m ρ c main_v10 : S4096x1024.Idx → EReal) = m ((c.tc : Thread nD τ).loc main_arg1) := by
  show StableHlo.after hostOps0 (W0 m ρ c) (Proc.devRef .tc main_v10) = _
  after_results
  rfl

/-- `main_v0` is `main_arg2` in another float format: the same extended reals. -/
theorem v0_eq (c : Dev nD) :
    (V1 m ρ c main_v0 : S512x1024.Idx → EReal) = m ((c.tc : Thread nD τ).loc main_arg2) := by
  show StableHlo.after hostOps0 (W0 m ρ c) (Proc.devRef .tc main_v0) = _
  after_results
  rfl

/-- `main_v1` is `main_arg5` in another float format: the same extended reals. -/
theorem v1_eq (c : Dev nD) :
    (V1 m ρ c main_v1 : S4096x2048.Idx → EReal) = m ((c.tc : Thread nD τ).loc main_arg5) := by
  show StableHlo.after hostOps0 (W0 m ρ c) (Proc.devRef .tc main_v1) = _
  after_results
  rfl

/-- `main_v2` is `main_arg6` in another float format: the same extended reals. -/
theorem v2_eq (c : Dev nD) :
    (V1 m ρ c main_v2 : S4096x1024.Idx → EReal) = m ((c.tc : Thread nD τ).loc main_arg6) := by
  show StableHlo.after hostOps0 (W0 m ρ c) (Proc.devRef .tc main_v2) = _
  after_results
  rfl

/-- `main_v3` is `main_arg9` in another float format: the same extended reals. -/
theorem v3_eq (c : Dev nD) :
    (V1 m ρ c main_v3 : S4096x1024.Idx → EReal) = m ((c.tc : Thread nD τ).loc main_arg9) := by
  show StableHlo.after hostOps0 (W0 m ρ c) (Proc.devRef .tc main_v3) = _
  after_results
  rfl

/-- `main_v4` is `main_arg10` in another float format: the same extended reals. -/
theorem v4_eq (c : Dev nD) :
    (V1 m ρ c main_v4 : S4096x1024.Idx → EReal) = m ((c.tc : Thread nD τ).loc main_arg10) := by
  show StableHlo.after hostOps0 (W0 m ρ c) (Proc.devRef .tc main_v4) = _
  after_results
  rfl

/-- `main_v5` is the vector `main_arg3` written as one row. -/
theorem v5_eq (c : Dev nD) :
    Cell.rvec (V1 m ρ c main_v5 : S1x512.Idx → EReal) = Cell.vec (m ((c.tc : Thread nD τ).loc main_arg3)) := by
  have e : (V1 m ρ c main_v5 : S1x512.Idx → EReal) = shapeCast S1x512 (m ((c.tc : Thread nD τ).loc main_arg3)) shapeCasts_S512_S1x512 := by
    show StableHlo.after hostOps0 (W0 m ρ c) (Proc.devRef .tc main_v5) = _
    after_results
    rfl
  funext g
  show (V1 m ρ c main_v5 : S1x512.Idx → EReal) (ix2 0 g) = _
  rw [e]
  refine (LibRow.shapeCast_row_apply (b := 512) _ _ (ix2 0 g)).trans ?_
  exact congrArg _ (funext fun a => match a with | ⟨0, _⟩ => rfl)

/-- `main_v6` is the vector `main_arg7` written as one row. -/
theorem v6_eq (c : Dev nD) :
    Cell.rvec (V1 m ρ c main_v6 : S1x4096.Idx → EReal) = Cell.vec (m ((c.tc : Thread nD τ).loc main_arg7)) := by
  have e : (V1 m ρ c main_v6 : S1x4096.Idx → EReal) = shapeCast S1x4096 (m ((c.tc : Thread nD τ).loc main_arg7)) shapeCasts_S4096_S1x4096 := by
    show StableHlo.after hostOps0 (W0 m ρ c) (Proc.devRef .tc main_v6) = _
    after_results
    rfl
  funext g
  show (V1 m ρ c main_v6 : S1x4096.Idx → EReal) (ix2 0 g) = _
  rw [e]
  refine (LibRow.shapeCast_row_apply (b := 4096) _ _ (ix2 0 g)).trans ?_
  exact congrArg _ (funext fun a => match a with | ⟨0, _⟩ => rfl)

/-- `main_v7` is the vector `main_arg8` written as one row. -/
theorem v7_eq (c : Dev nD) :
    Cell.rvec (V1 m ρ c main_v7 : S1x4096.Idx → EReal) = Cell.vec (m ((c.tc : Thread nD τ).loc main_arg8)) := by
  have e : (V1 m ρ c main_v7 : S1x4096.Idx → EReal) = shapeCast S1x4096 (m ((c.tc : Thread nD τ).loc main_arg8)) shapeCasts_S4096_S1x4096 := by
    show StableHlo.after hostOps0 (W0 m ρ c) (Proc.devRef .tc main_v7) = _
    after_results
    rfl
  funext g
  show (V1 m ρ c main_v7 : S1x4096.Idx → EReal) (ix2 0 g) = _
  rw [e]
  refine (LibRow.shapeCast_row_apply (b := 4096) _ _ (ix2 0 g)).trans ?_
  exact congrArg _ (funext fun a => match a with | ⟨0, _⟩ => rfl)

/-- `main_v8` is the vector `main_arg11` written as one row. -/
theorem v8_eq (c : Dev nD) :
    Cell.rvec (V1 m ρ c main_v8 : S1x4096.Idx → EReal) = Cell.vec (m ((c.tc : Thread nD τ).loc main_arg11)) := by
  have e : (V1 m ρ c main_v8 : S1x4096.Idx → EReal) = shapeCast S1x4096 (m ((c.tc : Thread nD τ).loc main_arg11)) shapeCasts_S4096_S1x4096 := by
    show StableHlo.after hostOps0 (W0 m ρ c) (Proc.devRef .tc main_v8) = _
    after_results
    rfl
  funext g
  show (V1 m ρ c main_v8 : S1x4096.Idx → EReal) (ix2 0 g) = _
  rw [e]
  refine (LibRow.shapeCast_row_apply (b := 4096) _ _ (ix2 0 g)).trans ?_
  exact congrArg _ (funext fun a => match a with | ⟨0, _⟩ => rfl)

/-- `main_v9` is the vector `main_arg12` written as one row. -/
theorem v9_eq (c : Dev nD) :
    Cell.rvec (V1 m ρ c main_v9 : S1x4096.Idx → EReal) = Cell.vec (m ((c.tc : Thread nD τ).loc main_arg12)) := by
  have e : (V1 m ρ c main_v9 : S1x4096.Idx → EReal) = shapeCast S1x4096 (m ((c.tc : Thread nD τ).loc main_arg12)) shapeCasts_S4096_S1x4096 := by
    show StableHlo.after hostOps0 (W0 m ρ c) (Proc.devRef .tc main_v9) = _
    after_results
    rfl
  funext g
  show (V1 m ρ c main_v9 : S1x4096.Idx → EReal) (ix2 0 g) = _
  rw [e]
  refine (LibRow.shapeCast_row_apply (b := 4096) _ _ (ix2 0 g)).trans ?_
  exact congrArg _ (funext fun a => match a with | ⟨0, _⟩ => rfl)

end Cert.KernelIdeal.Entry

end
-- ==== Proof.LibStack2.lean ====
/-
  Two arrays stacked along a new leading axis, read at an index.

  Each `[a, b]` array is given a unit leading axis and the two are joined along it; the result at `(s, p, q)` is the
  first array's `(p, q)` when `s = 0` and the second's when `s = 1`. Stated for any extents and any element type.
-/
import Idealize.ShloMosaic.Lib.Pipeline.Value
import Idealize.ShloMosaic.Lib.ValueIdx

noncomputable section

namespace Cert.LibStack2

open Idealize.ShloMosaic Idealize.ShloMosaic.ValueIdx

variable {α : Type} {a b : Nat}

/-- An `[a, b]` array with a unit leading axis added, read at `(0, p, q)`, is the array at `(p, q)`. -/
theorem lead_apply (u : (⟨2, ![a, b]⟩ : Shape).Idx → α)
    (hb : (⟨2, ![a, b]⟩ : Shape).BroadcastsInDim ⟨3, ![1, a, b]⟩ ![1, 2])
    (j : (⟨3, ![1, a, b]⟩ : Shape).Idx) :
    broadcastInDim ⟨3, ![1, a, b]⟩ ![1, 2] hb u j = u (ix2 (j 1) (j 2)) :=
  broadcastInDim_apply _ hb u j (ix2 (j 1) (j 2)) (fun d => match d with
    | ⟨0, _⟩ => by
        show (j 1).val = if a = 1 then 0 else (j 1).val
        split_ifs with h1
        · have := (j 1).isLt
          simp only [Matrix.cons_val_one, Matrix.cons_val_zero] at this
          omega
        · rfl
    | ⟨1, _⟩ => by
        show (j 2).val = if b = 1 then 0 else (j 2).val
        split_ifs with h1
        · have := (j 2).isLt
          simp only [Matrix.cons_val_two, Matrix.cons_val_one, Matrix.cons_val_zero, Matrix.tail_cons, Matrix.head_cons] at this
          omega
        · rfl)

/-- The stack of two `[a, b]` arrays at `(s, p, q)`: the first at `s = 0`, the second otherwise. -/
theorem stack_apply (u v : (⟨2, ![a, b]⟩ : Shape).Idx → α)
    (hb : (⟨2, ![a, b]⟩ : Shape).BroadcastsInDim ⟨3, ![1, a, b]⟩ ![1, 2])
    (hc : Shape.Concatenates [(⟨3, ![1, a, b]⟩ : Shape), ⟨3, ![1, a, b]⟩] ⟨3, ![2, a, b]⟩ 0)
    (i : (⟨3, ![2, a, b]⟩ : Shape).Idx) :
    concatenate ⟨3, ![2, a, b]⟩ 0
        [⟨⟨3, ![1, a, b]⟩, broadcastInDim ⟨3, ![1, a, b]⟩ ![1, 2] hb u⟩,
         ⟨⟨3, ![1, a, b]⟩, broadcastInDim ⟨3, ![1, a, b]⟩ ![1, 2] hb v⟩] hc i
      = if (i 0).val = 0 then u (ix2 (i 1) (i 2)) else v (ix2 (i 1) (i 2)) := by
  have hi0 : (i 0).val < 2 := (i 0).isLt
  by_cases h0 : (i 0).val = 0
  · rw [if_pos h0]
    refine (concatenate_pair_apply_left (0 : Fin 3) (broadcastInDim ⟨3, ![1, a, b]⟩ ![1, 2] hb u)
      (broadcastInDim ⟨3, ![1, a, b]⟩ ![1, 2] hb v) hc i rfl (ix3 0 (i 1) (i 2)) ?_).trans
      (lead_apply u hb (ix3 0 (i 1) (i 2)))
    intro d
    match d with
    | ⟨0, _⟩ => exact h0.symm
    | ⟨1, _⟩ => rfl
    | ⟨2, _⟩ => rfl
  · rw [if_neg h0]
    refine (concatenate_pair_apply_right (0 : Fin 3) (broadcastInDim ⟨3, ![1, a, b]⟩ ![1, 2] hb u)
      (broadcastInDim ⟨3, ![1, a, b]⟩ ![1, 2] hb v) hc i rfl rfl (ix3 0 (i 1) (i 2)) ?_ ?_).trans
      (lead_apply v hb (ix3 0 (i 1) (i 2)))
    · intro d hd
      match d with
      | ⟨0, _⟩ => exact absurd rfl hd
      | ⟨1, _⟩ => rfl
      | ⟨2, _⟩ => rfl
    · show (0 : Nat) + 1 = (i 0).val
      omega

end Cert.LibStack2

end
-- ==== Proof.VecOps0.lean ====
/-
  Vector operations of the first region's body read at one row and one column.

  Every lemma is stated over variables of the literal array types and at an index given by its two coordinates:
  a product of two matrices that both contract their second axis is a sum over that axis; a slice along the
  columns reads the source further right; a 512-wide block written twice reads at the column modulo 512.
-/
import proofs.«137373_j18124761989796_2_alg».proof.Proof.Gen.KernelIdeal
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.VecOps0

open Idealize.ShloMosaic Idealize.ShloMosaic.ValueIdx Cert.KernelIdeal Cert.KernelIdeal.Gen
open scoped BigOperators

/-! ## A product `l · wᵀ`: both operands contract their second axis -/

/-- A product of an `A × K` matrix with the transpose of a `B × K` matrix, accumulated onto zero, read at row `r`
    and column `g`: the sum over `k` of `l (r, k) · w (g, k)`. The dimension numbers enter through four facts: one
    contracted axis of extent `K`, which is axis 1 of either operand, and the operands' rows are the result's row and
    column. -/
theorem matmul_nt_apply {A B K : Nat} {φ₁ φ₂ : FTy}
    (d : DotDims (⟨2, ![A, K]⟩ : Shape) (⟨2, ![B, K]⟩ : Shape) (⟨2, ![A, B]⟩ : Shape))
    (hr : d.contr.rank = 1) (hs : d.contr.size ⟨0, by omega⟩ = K)
    (hlc : d.lhsContracting = [1]) (hrc : d.rhsContracting = [1])
    (hl0 : ∀ j q, (d.lhsIdx j q 0).val = (j 0).val) (hr0 : ∀ j q, (d.rhsIdx j q 0).val = (j 1).val)
    (l : FVec Ideal (⟨2, ![A, K]⟩ : Shape) φ₁) (w : FVec Ideal (⟨2, ![B, K]⟩ : Shape) φ₂) (r : Fin A) (g : Fin B) :
    matmul d none l w (constant (F := Ideal) (⟨2, ![A, B]⟩ : Shape) .f32 0x00000000#32) (ix2 r g)
      = ∑ k : Fin K, l (ix2 r k) * w (ix2 g k) := by
  refine (Ideal.matmul_constant_zero_apply d none l w (ix2 r g)).trans ?_
  rw [← Equiv.sum_comp (contrEquiv1 d K hr hs).symm]
  refine Finset.sum_congr rfl fun k _ => ?_
  have hk := contrEquiv1_symm_val d K hr hs k
  have el : d.lhsIdx (ix2 r g) ((contrEquiv1 d K hr hs).symm k) = ix2 r k := funext fun a => Fin.ext (by
    match a with
    | ⟨0, _⟩ => exact hl0 _ _
    | ⟨1, _⟩ => exact (d.lhsIdx_val_of_single hlc _ _).trans hk)
  have er : d.rhsIdx (ix2 r g) ((contrEquiv1 d K hr hs).symm k) = ix2 g k := funext fun a => Fin.ext (by
    match a with
    | ⟨0, _⟩ => exact hr0 _ _
    | ⟨1, _⟩ => exact (d.rhsIdx_val_of_single hrc _ _).trans hk)
  rw [el, er]

/-! ## The three products of this body -/

/-- The bridge's product, `128 × 1024` by the transpose of `512 × 1024`. -/
theorem matmul_bridge_apply (l : FVec Ideal S128x1024 .bf16) (w : FVec Ideal S512x1024 .bf16) (r : Fin 128) (g : Fin 512) :
    matmul dot_S128x1024_S512x1024_S128x512_1_1_0_0_n_n none l w (constant (F := Ideal) S128x512 .f32 0x00000000#32) (ix2 r g)
      = ∑ k : Fin 1024, l (ix2 r k) * w (ix2 g k) :=
  matmul_nt_apply dot_S128x1024_S512x1024_S128x512_1_1_0_0_n_n rfl rfl rfl rfl
    (fun j q => by
      unfold DotDims.lhsIdx
      rw [dif_neg (show ¬(0 : Fin S128x1024.rank) ∈ dot_S128x1024_S512x1024_S128x512_1_1_0_0_n_n.lhsBatch by decide),
        dif_pos (show (0 : Fin S128x1024.rank) ∈ dot_S128x1024_S512x1024_S128x512_1_1_0_0_n_n.lhsNonContracting by decide)]
      rfl)
    (fun j q => by
      unfold DotDims.rhsIdx
      rw [dif_neg (show ¬(0 : Fin S512x1024.rank) ∈ dot_S128x1024_S512x1024_S128x512_1_1_0_0_n_n.rhsBatch by decide),
        dif_pos (show (0 : Fin S512x1024.rank) ∈ dot_S128x1024_S512x1024_S128x512_1_1_0_0_n_n.rhsNonContracting by decide)]
      rfl)
    l w r g

/-- The input's product, `128 × 2048` by the transpose of `4096 × 2048`. -/
theorem matmul_input_apply (l : FVec Ideal S128x2048 .bf16) (w : FVec Ideal S4096x2048 .bf16) (r : Fin 128) (g : Fin 4096) :
    matmul dot_S128x2048_S4096x2048_S128x4096_1_1_0_0_n_n none l w (constant (F := Ideal) S128x4096 .f32 0x00000000#32) (ix2 r g)
      = ∑ k : Fin 2048, l (ix2 r k) * w (ix2 g k) :=
  matmul_nt_apply dot_S128x2048_S4096x2048_S128x4096_1_1_0_0_n_n rfl rfl rfl rfl
    (fun j q => by
      unfold DotDims.lhsIdx
      rw [dif_neg (show ¬(0 : Fin S128x2048.rank) ∈ dot_S128x2048_S4096x2048_S128x4096_1_1_0_0_n_n.lhsBatch by decide),
        dif_pos (show (0 : Fin S128x2048.rank) ∈ dot_S128x2048_S4096x2048_S128x4096_1_1_0_0_n_n.lhsNonContracting by decide)]
      rfl)
    (fun j q => by
      unfold DotDims.rhsIdx
      rw [dif_neg (show ¬(0 : Fin S4096x2048.rank) ∈ dot_S128x2048_S4096x2048_S128x4096_1_1_0_0_n_n.rhsBatch by decide),
        dif_pos (show (0 : Fin S4096x2048.rank) ∈ dot_S128x2048_S4096x2048_S128x4096_1_1_0_0_n_n.rhsNonContracting by decide)]
      rfl)
    l w r g

/-- The hidden state's product, `128 × 1024` by the transpose of `4096 × 1024`. -/
theorem matmul_hidden_apply (l : FVec Ideal S128x1024 .bf16) (w : FVec Ideal S4096x1024 .bf16) (r : Fin 128) (g : Fin 4096) :
    matmul dot_S128x1024_S4096x1024_S128x4096_1_1_0_0_n_n none l w (constant (F := Ideal) S128x4096 .f32 0x00000000#32) (ix2 r g)
      = ∑ k : Fin 1024, l (ix2 r k) * w (ix2 g k) :=
  matmul_nt_apply dot_S128x1024_S4096x1024_S128x4096_1_1_0_0_n_n rfl rfl rfl rfl
    (fun j q => by
      unfold DotDims.lhsIdx
      rw [dif_neg (show ¬(0 : Fin S128x1024.rank) ∈ dot_S128x1024_S4096x1024_S128x4096_1_1_0_0_n_n.lhsBatch by decide),
        dif_pos (show (0 : Fin S128x1024.rank) ∈ dot_S128x1024_S4096x1024_S128x4096_1_1_0_0_n_n.lhsNonContracting by decide)]
      rfl)
    (fun j q => by
      unfold DotDims.rhsIdx
      rw [dif_neg (show ¬(0 : Fin S4096x1024.rank) ∈ dot_S128x1024_S4096x1024_S128x4096_1_1_0_0_n_n.rhsBatch by decide),
        dif_pos (show (0 : Fin S4096x1024.rank) ∈ dot_S128x1024_S4096x1024_S128x4096_1_1_0_0_n_n.rhsNonContracting by decide)]
      rfl)
    l w r g

/-! ## A block written twice side by side -/

/-- A `128 × 512` block written twice along the columns reads, at column `n`, the block at column `n mod 512`
    (given as `m`): in the left copy `m = n`, in the right copy `m + 512 = n`. -/
theorem concat_twice_apply {α : Type} (v : S128x512.Idx → α) (r : Fin 128) (n : Fin 1024) (m : Fin 512)
    (hm : m.val = n.val % 512) :
    concatenate S128x1024 1 [⟨S128x512, v⟩, ⟨S128x512, v⟩] concatenates_S128x512_S128x512_S128x1024_d1 (ix2 r n)
      = v (ix2 r m) := by
  have hn := n.isLt
  by_cases hlt : n.val < 512
  · refine concatenate_pair_apply_left 1 v v _ (ix2 r n) rfl (ix2 r m) fun b => ?_
    match b with
    | ⟨0, _⟩ => rfl
    | ⟨1, _⟩ => show m.val = n.val; omega
  · refine concatenate_pair_apply_right 1 v v _ (ix2 r n) rfl rfl (ix2 r m) (fun b hb => ?_) ?_
    · match b with
      | ⟨0, _⟩ => rfl
      | ⟨1, _⟩ => exact absurd rfl hb
    · show m.val + 512 = n.val; omega

end Cert.KernelIdeal.VecOps0

end
-- ==== Proof.Body0.lean ====
/-
  The first region's body at one index of a block.

  A block is 128 batch rows. At row `r` and unit `n` the three stored values are functions of row `r` of the two
  row-blocked inputs and of the whole weight and bias arrays: the state array holds the bridge's output written twice,
  and both hidden-state arrays hold the first cell's new hidden state.
-/
import proofs.«137373_j18124761989796_2_alg».proof.Proof.Gen.KernelIdeal.Frame
import proofs.«137373_j18124761989796_2_alg».proof.Proof.Cell
import proofs.«137373_j18124761989796_2_alg».proof.Proof.VecOps0
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body0

open Idealize.ShloMosaic Idealize.ShloMosaic.ValueIdx Cert.KernelIdeal Cert.KernelIdeal.Gen
open Cert.KernelIdeal.VecOps0
open scoped BigOperators

/-- The two offsets of a whole-block access are zero. -/
theorem hz : (![0, 0] : Fin 2 → Nat) = fun _ => 0 := funext fun a => by fin_cases a <;> rfl

/-! ## The initial state: the bridge's output written twice -/

/-- The concatenated bridge output at row `r`, unit `n`: the sum over the encoder row against row `n mod 512` of the
    bridge's weights, plus that column's bias. -/
theorem pay3_apply (v0 : Vec Ideal S128x1024 .bf16) (v2 : Vec Ideal S512x1024 .bf16) (v5 : Vec Ideal S1x512 .f32)
    (r : Fin 128) (n : Fin 1024) :
    k0_pay3 (F := Ideal) v0 v2 v5 (ix2 r n) = Cell.init (Cell.row v0 r) (Cell.row v2) (Cell.rvec v5) n := by
  unfold k0_pay3
  refine (concat_twice_apply _ r n (Cell.half n) rfl).trans ?_
  refine (addf_apply _ _ _).trans ?_
  refine (congrArg₂ (· + ·) (matmul_bridge_apply _ _ r (Cell.half n))
    (broadcastTo_1b_ab_apply _ broadcasts_S1x512_S128x512 r (Cell.half n))).trans ?_
  simp only [shapeCast_self]
  rfl

/-! ## The four gates before their nonlinearities -/

/-- The 4096-wide pre-activation at row `r`, gate column `g`: the input row against row `g` of the input weights,
    plus the initial state's row against row `g` of the recurrent weights, plus the two biases. -/
theorem pay4_apply (v0 : Vec Ideal S128x1024 .bf16) (v2 : Vec Ideal S512x1024 .bf16) (v5 : Vec Ideal S1x512 .f32)
    (v11 : Vec Ideal S128x2048 .bf16) (v13 : Vec Ideal S4096x2048 .bf16) (v15 : Vec Ideal S4096x1024 .bf16)
    (v20 v24 : Vec Ideal S1x4096 .f32) (r : Fin 128) (g : Fin 4096) :
    k0_pay4 (F := Ideal) v0 v2 v5 v11 v13 v15 v20 v24 (ix2 r g)
      = Cell.pre (Cell.row v11 r) (Cell.init (Cell.row v0 r) (Cell.row v2) (Cell.rvec v5))
          (Cell.row v13) (Cell.row v15) (Cell.rvec v20) (Cell.rvec v24) g := by
  unfold k0_pay4
  refine (addf_apply _ _ _).trans ?_
  refine (congrArg₂ (· + ·) ((addf_apply _ _ _).trans (congrArg₂ (· + ·) ((addf_apply _ _ _).trans
      (congrArg₂ (· + ·) (matmul_input_apply _ _ r g) (matmul_hidden_apply _ _ r g)))
      (broadcastTo_1b_ab_apply _ broadcasts_S1x4096_S128x4096 r g)))
    (broadcastTo_1b_ab_apply _ broadcasts_S1x4096_S128x4096 r g)).trans ?_
  simp only [shapeCast_self, truncf_apply, pay3_apply]
  rfl

/-- A gate's slice of the pre-activation: unit `n` of the slice from column `off` is gate column `k = off + n`. -/
theorem gate_apply (off : Nat) (h : S128x4096.Slices ![0, off] S128x1024)
    (v0 : Vec Ideal S128x1024 .bf16) (v2 : Vec Ideal S512x1024 .bf16) (v5 : Vec Ideal S1x512 .f32)
    (v11 : Vec Ideal S128x2048 .bf16) (v13 : Vec Ideal S4096x2048 .bf16) (v15 : Vec Ideal S4096x1024 .bf16)
    (v20 v24 : Vec Ideal S1x4096 .f32) (r : Fin 128) (n : Fin 1024) (k : Fin 4096) (hk : k.val = off + n.val) :
    extractStridedSlice S128x1024 ![0, off] (k0_pay4 (F := Ideal) v0 v2 v5 v11 v13 v15 v20 v24) h (ix2 r n)
      = Cell.pre (Cell.row v11 r) (Cell.init (Cell.row v0 r) (Cell.row v2) (Cell.rvec v5))
          (Cell.row v13) (Cell.row v15) (Cell.rvec v20) (Cell.rvec v24) k :=
  (slice2_axis1_apply off _ h r n k hk).trans (pay4_apply v0 v2 v5 v11 v13 v15 v20 v24 r k)

/-! ## The output gate and the new memory -/

/-- The output gate at row `r`, unit `n`. -/
theorem pay5_apply (v0 : Vec Ideal S128x1024 .bf16) (v2 : Vec Ideal S512x1024 .bf16) (v5 : Vec Ideal S1x512 .f32)
    (v11 : Vec Ideal S128x2048 .bf16) (v13 : Vec Ideal S4096x2048 .bf16) (v15 : Vec Ideal S4096x1024 .bf16)
    (v20 v24 : Vec Ideal S1x4096 .f32) (r : Fin 128) (n : Fin 1024) :
    k0_pay5 (F := Ideal) v0 v2 v5 v11 v13 v15 v20 v24 (ix2 r n)
      = Ideal.logistic (Cell.pre (Cell.row v11 r) (Cell.init (Cell.row v0 r) (Cell.row v2) (Cell.rvec v5))
          (Cell.row v13) (Cell.row v15) (Cell.rvec v20) (Cell.rvec v24) (Cell.go n)) := by
  unfold k0_pay5
  exact congrArg Ideal.logistic (gate_apply 3072 _ v0 v2 v5 v11 v13 v15 v20 v24 r n (Cell.go n) rfl)

/-- The squashed new memory at row `r`, unit `n`: the forget gate times the old memory plus the input gate times the
    candidate, under the hyperbolic tangent. -/
theorem pay6_apply (v0 : Vec Ideal S128x1024 .bf16) (v2 : Vec Ideal S512x1024 .bf16) (v5 : Vec Ideal S1x512 .f32)
    (v11 : Vec Ideal S128x2048 .bf16) (v13 : Vec Ideal S4096x2048 .bf16) (v15 : Vec Ideal S4096x1024 .bf16)
    (v20 v24 : Vec Ideal S1x4096 .f32) (r : Fin 128) (n : Fin 1024) :
    k0_pay6 (F := Ideal) v0 v2 v5 v11 v13 v15 v20 v24 (ix2 r n)
      = Ideal.tanh
          (Ideal.logistic (Cell.pre (Cell.row v11 r) (Cell.init (Cell.row v0 r) (Cell.row v2) (Cell.rvec v5))
              (Cell.row v13) (Cell.row v15) (Cell.rvec v20) (Cell.rvec v24) (Cell.gf n))
            * Cell.init (Cell.row v0 r) (Cell.row v2) (Cell.rvec v5) n
          + Ideal.logistic (Cell.pre (Cell.row v11 r) (Cell.init (Cell.row v0 r) (Cell.row v2) (Cell.rvec v5))
              (Cell.row v13) (Cell.row v15) (Cell.rvec v20) (Cell.rvec v24) (Cell.gi n))
            * Ideal.tanh (Cell.pre (Cell.row v11 r) (Cell.init (Cell.row v0 r) (Cell.row v2) (Cell.rvec v5))
              (Cell.row v13) (Cell.row v15) (Cell.rvec v20) (Cell.rvec v24) (Cell.gg n))) := by
  unfold k0_pay6
  refine congrArg Ideal.tanh ?_
  refine (addf_apply _ _ _).trans ?_
  refine congrArg₂ (· + ·) ((mulf_apply _ _ _).trans (congrArg₂ (· * ·) ?_ (pay3_apply v0 v2 v5 r n)))
    ((mulf_apply _ _ _).trans (congrArg₂ (· * ·) ?_ ?_))
  · exact congrArg Ideal.logistic (gate_apply 1024 _ v0 v2 v5 v11 v13 v15 v20 v24 r n (Cell.gf n) rfl)
  · exact congrArg Ideal.logistic (gate_apply 0 _ v0 v2 v5 v11 v13 v15 v20 v24 r n (Cell.gi n) (Nat.zero_add _).symm)
  · exact congrArg Ideal.tanh (gate_apply 2048 _ v0 v2 v5 v11 v13 v15 v20 v24 r n (Cell.gg n) rfl)

/-- The new hidden state at row `r`, unit `n`: the output gate times the squashed new memory. -/
theorem pay1_apply (v0 : Vec Ideal S128x1024 .bf16) (v2 : Vec Ideal S512x1024 .bf16) (v5 : Vec Ideal S1x512 .f32)
    (v11 : Vec Ideal S128x2048 .bf16) (v13 : Vec Ideal S4096x2048 .bf16) (v15 : Vec Ideal S4096x1024 .bf16)
    (v20 v24 : Vec Ideal S1x4096 .f32) (r : Fin 128) (n : Fin 1024) :
    k0_pay1 (F := Ideal) (k0_pay5 v0 v2 v5 v11 v13 v15 v20 v24) (k0_pay6 v0 v2 v5 v11 v13 v15 v20 v24) (ix2 r n)
      = Cell.cell (Cell.row v11 r) (Cell.init (Cell.row v0 r) (Cell.row v2) (Cell.rvec v5))
          (Cell.row v13) (Cell.row v15) (Cell.rvec v20) (Cell.rvec v24) n := by
  unfold k0_pay1
  exact (mulf_apply _ _ _).trans (congrArg₂ (· * ·) (pay5_apply v0 v2 v5 v11 v13 v15 v20 v24 r n)
    (pay6_apply v0 v2 v5 v11 v13 v15 v20 v24 r n))

/-! ## The three stored blocks -/

/-- The state block: row `r`, unit `n`. -/
theorem out0_10_apply (x0 : Vec Ideal S128x1024 .bf16) (x1 : Vec Ideal S128x2048 .bf16) (x2 : Vec Ideal S512x1024 .bf16)
    (x3 : Vec Ideal S1x512 .f32) (x4 : Vec Ideal S4096x2048 .bf16) (x5 : Vec Ideal S4096x1024 .bf16)
    (x6 x7 : Vec Ideal S1x4096 .f32) (r : Fin 128) (n : Fin 1024) :
    out0_10 (F := Ideal) x0 x1 x2 x3 x4 x5 x6 x7 (ix2 r n)
      = Cell.init (Cell.row x0 r) (Cell.row x2) (Cell.rvec x3) n := by
  unfold out0_10
  rw [View.canon_unit_zero hz]
  simp only [View.ld_unit_zero (S := S128x1024) hz, View.ld_unit_zero (S := S512x1024) hz,
    View.ld_unit_zero (S := S1x512) hz]
  exact pay3_apply x0 x2 x3 r n

/-- The hidden-state block: row `r`, unit `n`. -/
theorem out0_8_apply (x0 : Vec Ideal S128x1024 .bf16) (x1 : Vec Ideal S128x2048 .bf16) (x2 : Vec Ideal S512x1024 .bf16)
    (x3 : Vec Ideal S1x512 .f32) (x4 : Vec Ideal S4096x2048 .bf16) (x5 : Vec Ideal S4096x1024 .bf16)
    (x6 x7 : Vec Ideal S1x4096 .f32) (r : Fin 128) (n : Fin 1024) :
    out0_8 (F := Ideal) x0 x1 x2 x3 x4 x5 x6 x7 (ix2 r n)
      = Cell.cell (Cell.row x1 r) (Cell.init (Cell.row x0 r) (Cell.row x2) (Cell.rvec x3))
          (Cell.row x4) (Cell.row x5) (Cell.rvec x6) (Cell.rvec x7) n := by
  unfold out0_8
  rw [View.canon_unit_zero hz]
  simp only [View.ld_unit_zero (S := S128x1024) hz, View.ld_unit_zero (S := S512x1024) hz,
    View.ld_unit_zero (S := S1x512) hz, View.ld_unit_zero (S := S128x2048) hz, View.ld_unit_zero (S := S4096x2048) hz,
    View.ld_unit_zero (S := S4096x1024) hz, View.ld_unit_zero (S := S1x4096) hz]
  exact pay1_apply x0 x2 x3 x1 x4 x5 x6 x7 r n

/-- The same value in the narrower float format: a change of format is the identity on the extended reals. -/
theorem out0_9_apply (x0 : Vec Ideal S128x1024 .bf16) (x1 : Vec Ideal S128x2048 .bf16) (x2 : Vec Ideal S512x1024 .bf16)
    (x3 : Vec Ideal S1x512 .f32) (x4 : Vec Ideal S4096x2048 .bf16) (x5 : Vec Ideal S4096x1024 .bf16)
    (x6 x7 : Vec Ideal S1x4096 .f32) (r : Fin 128) (n : Fin 1024) :
    out0_9 (F := Ideal) x0 x1 x2 x3 x4 x5 x6 x7 (ix2 r n)
      = Cell.cell (Cell.row x1 r) (Cell.init (Cell.row x0 r) (Cell.row x2) (Cell.rvec x3))
          (Cell.row x4) (Cell.row x5) (Cell.rvec x6) (Cell.rvec x7) n := by
  unfold out0_9
  rw [View.canon_unit_zero hz]
  simp only [View.ld_unit_zero (S := S128x1024) hz, View.ld_unit_zero (S := S512x1024) hz,
    View.ld_unit_zero (S := S1x512) hz, View.ld_unit_zero (S := S128x2048) hz, View.ld_unit_zero (S := S4096x2048) hz,
    View.ld_unit_zero (S := S4096x1024) hz, View.ld_unit_zero (S := S1x4096) hz]
  unfold k0_pay2
  exact (truncf_apply (ψ := .bf16) _ bitsLt_bf16_f32 (ix2 r n)).trans (pay1_apply x0 x2 x3 x1 x4 x5 x6 x7 r n)

end Cert.KernelIdeal.Body0

end
-- ==== Proof.Final0.lean ====
/-
  The first region's three arrays after the region, batch row by batch row.

  The region runs over 32 points; point t handles batch rows 128 t ... 128 t + 127. Every input block is read off its
  array: the two row-blocked inputs give their 128 rows, the weights and biases are whole at every point. The body at one
  index of a block is a function of those blocks, so what point t writes back is block t of ONE function of the region's
  input arrays; the 32 blocks cover the 4096 rows, so each array ends holding that function. Stated at any contents of
  the arrays when the region is entered.
-/
import proofs.«137373_j18124761989796_2_alg».proof.Proof.Gen.KernelIdeal.Frame
import proofs.«137373_j18124761989796_2_alg».proof.Proof.Cell
import proofs.«137373_j18124761989796_2_alg».proof.Proof.Body0
import Idealize.ShloMosaic.Lib.Pipeline.Value
import Idealize.ShloMosaic.Lib.ValueIdx

noncomputable section

namespace Cert.KernelIdeal.Final

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The first region's index maps over its 32 points

A window over 128 batch rows per point sits at block row t and block column 0 at point t; a window over a whole
array sits at block (0, 0) at every point. -/

/-- The row-blocked windows (the two inputs and the three outputs): block row t, block column 0. -/
theorem index_rows0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_8.index t (0 : Fin 2) = t.val ∧ win0_8.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

/-- The whole-array windows (the weights and the biases): block (0, 0). -/
theorem index_whole0 : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- Row r of the 128 rows at point t is batch row 128 t + r, one of the 4096. -/
theorem batchRow_lt0 (t : Fin cfg0.N) (r : Fin 128) : 128 * t.val + r.val < 4096 := by
  have ht : t.val < 32 := t.isLt
  have hr := r.isLt
  omega

/-! ## Each input block, read off its array -/

/-- Row r of the encoder-state block at point t is batch row 128 t + r of the encoder states. -/
theorem row_blk0_0 (c : Dev nD) (t : Fin cfg0.N) (r : Fin 128) :
    Cell.row (iblk0 (F := Ideal) V c 0 t : Vec Ideal S128x1024 .bf16) r
      = Cell.row (V c main_v10 : S4096x1024.Idx → EReal) ⟨128 * t.val + r.val, batchRow_lt0 t r⟩ := by
  obtain ⟨e0, e1, -⟩ := index_rows0 t
  funext k
  show V c main_v10 (((cfg0.win 0).blk t).view.emb (ix2 r k)) = V c main_v10 _
  congr 1
  funext a
  apply Fin.ext
  match a with
  | ⟨0, _⟩ => show win0_0.index t (0 : Fin 2) * 128 + 1 * r.val = 128 * t.val + r.val; omega
  | ⟨1, _⟩ => show win0_0.index t (1 : Fin 2) * 1024 + 1 * k.val = k.val; omega

/-- Row r of the input block at point t is batch row 128 t + r of the inputs. -/
theorem row_blk0_1 (c : Dev nD) (t : Fin cfg0.N) (r : Fin 128) :
    Cell.row (iblk0 (F := Ideal) V c 1 t : Vec Ideal S128x2048 .bf16) r
      = Cell.row (V c main_v18 : S4096x2048.Idx → EReal) ⟨128 * t.val + r.val, batchRow_lt0 t r⟩ := by
  obtain ⟨-, -, e0, e1, -⟩ := index_rows0 t
  funext k
  show V c main_v18 (((cfg0.win 1).blk t).view.emb (ix2 r k)) = V c main_v18 _
  congr 1
  funext a
  apply Fin.ext
  match a with
  | ⟨0, _⟩ => show win0_1.index t (0 : Fin 2) * 128 + 1 * r.val = 128 * t.val + r.val; omega
  | ⟨1, _⟩ => show win0_1.index t (1 : Fin 2) * 2048 + 1 * k.val = k.val; omega

/-- The bridge's weight block at any point is the whole weight array. -/
theorem blk0_2 (c : Dev nD) (t : Fin cfg0.N) :
    (iblk0 (F := Ideal) V c 2 t : Vec Ideal S512x1024 .bf16) = (V c main_v0 : S512x1024.Idx → EReal) := by
  obtain ⟨e0, e1, -⟩ := index_whole0 t
  funext y
  show V c main_v0 (((cfg0.win 2).blk t).view.emb y) = V c main_v0 y
  congr 1
  funext a
  apply Fin.ext
  match a with
  | ⟨0, _⟩ => show win0_2.index t (0 : Fin 2) * 512 + 1 * (y 0).val = (y 0).val; omega
  | ⟨1, _⟩ => show win0_2.index t (1 : Fin 2) * 1024 + 1 * (y 1).val = (y 1).val; omega

/-- The bridge's bias block at any point is the whole bias row. -/
theorem blk0_3 (c : Dev nD) (t : Fin cfg0.N) :
    (iblk0 (F := Ideal) V c 3 t : Vec Ideal S1x512 .f32) = (V c main_v5 : S1x512.Idx → EReal) := by
  obtain ⟨-, -, e0, e1, -⟩ := index_whole0 t
  funext y
  show V c main_v5 (((cfg0.win 3).blk t).view.emb y) = V c main_v5 y
  congr 1
  funext a
  apply Fin.ext
  match a with
  | ⟨0, _⟩ => show win0_3.index t (0 : Fin 2) * 1 + 1 * (y 0).val = (y 0).val; omega
  | ⟨1, _⟩ => show win0_3.index t (1 : Fin 2) * 512 + 1 * (y 1).val = (y 1).val; omega

/-- The cell's input-weight block at any point is the whole array. -/
theorem blk0_4 (c : Dev nD) (t : Fin cfg0.N) :
    (iblk0 (F := Ideal) V c 4 t : Vec Ideal S4096x2048 .bf16) = (V c main_v1 : S4096x2048.Idx → EReal) := by
  obtain ⟨-, -, -, -, e0, e1, -⟩ := index_whole0 t
  funext y
  show V c main_v1 (((cfg0.win 4).blk t).view.emb y) = V c main_v1 y
  congr 1
  funext a
  apply Fin.ext
  match a with
  | ⟨0, _⟩ => show win0_4.index t (0 : Fin 2) * 4096 + 1 * (y 0).val = (y 0).val; omega
  | ⟨1, _⟩ => show win0_4.index t (1 : Fin 2) * 2048 + 1 * (y 1).val = (y 1).val; omega

/-- The cell's hidden-weight block at any point is the whole array. -/
theorem blk0_5 (c : Dev nD) (t : Fin cfg0.N) :
    (iblk0 (F := Ideal) V c 5 t : Vec Ideal S4096x1024 .bf16) = (V c main_v2 : S4096x1024.Idx → EReal) := by
  obtain ⟨-, -, -, -, -, -, e0, e1, -⟩ := index_whole0 t
  funext y
  show V c main_v2 (((cfg0.win 5).blk t).view.emb y) = V c main_v2 y
  congr 1
  funext a
  apply Fin.ext
  match a with
  | ⟨0, _⟩ => show win0_5.index t (0 : Fin 2) * 4096 + 1 * (y 0).val = (y 0).val; omega
  | ⟨1, _⟩ => show win0_5.index t (1 : Fin 2) * 1024 + 1 * (y 1).val = (y 1).val; omega

/-- The cell's first bias block at any point is the whole bias row. -/
theorem blk0_6 (c : Dev nD) (t : Fin cfg0.N) :
    (iblk0 (F := Ideal) V c 6 t : Vec Ideal S1x4096 .f32) = (V c main_v6 : S1x4096.Idx → EReal) := by
  obtain ⟨-, -, -, -, -, -, -, -, e0, e1, -⟩ := index_whole0 t
  funext y
  show V c main_v6 (((cfg0.win 6).blk t).view.emb y) = V c main_v6 y
  congr 1
  funext a
  apply Fin.ext
  match a with
  | ⟨0, _⟩ => show win0_6.index t (0 : Fin 2) * 1 + 1 * (y 0).val = (y 0).val; omega
  | ⟨1, _⟩ => show win0_6.index t (1 : Fin 2) * 4096 + 1 * (y 1).val = (y 1).val; omega

/-- The cell's second bias block at any point is the whole bias row. -/
theorem blk0_7 (c : Dev nD) (t : Fin cfg0.N) :
    (iblk0 (F := Ideal) V c 7 t : Vec Ideal S1x4096 .f32) = (V c main_v7 : S1x4096.Idx → EReal) := by
  obtain ⟨-, -, -, -, -, -, -, -, -, -, e0, e1⟩ := index_whole0 t
  funext y
  show V c main_v7 (((cfg0.win 7).blk t).view.emb y) = V c main_v7 y
  congr 1
  funext a
  apply Fin.ext
  match a with
  | ⟨0, _⟩ => show win0_7.index t (0 : Fin 2) * 1 + 1 * (y 0).val = (y 0).val; omega
  | ⟨1, _⟩ => show win0_7.index t (1 : Fin 2) * 4096 + 1 * (y 1).val = (y 1).val; omega

/-! ## What the three arrays end holding, batch row by batch row -/

/-- The state array: the bridge's output of each batch row, written twice. -/
abbrev state0 (c : Dev nD) : S4096x1024.Idx → EReal := fun i =>
  Cell.init (Cell.row (V c main_v10 : S4096x1024.Idx → EReal) (i 0)) (Cell.row (V c main_v0 : S512x1024.Idx → EReal))
    (Cell.rvec (V c main_v5 : S1x512.Idx → EReal)) (i 1)

/-- The hidden-state arrays: the first cell's new hidden state of each batch row. -/
abbrev hidden0 (c : Dev nD) : S4096x1024.Idx → EReal := fun i =>
  Cell.cell (Cell.row (V c main_v18 : S4096x2048.Idx → EReal) (i 0))
    (Cell.init (Cell.row (V c main_v10 : S4096x1024.Idx → EReal) (i 0)) (Cell.row (V c main_v0 : S512x1024.Idx → EReal))
      (Cell.rvec (V c main_v5 : S1x512.Idx → EReal)))
    (Cell.row (V c main_v1 : S4096x2048.Idx → EReal)) (Cell.row (V c main_v2 : S4096x1024.Idx → EReal))
    (Cell.rvec (V c main_v6 : S1x4096.Idx → EReal)) (Cell.rvec (V c main_v7 : S1x4096.Idx → EReal)) (i 1)

/-! ## Where an output block's element sits in its array -/

theorem emb0_8 (t : Fin cfg0.N) (r : Fin 128) (n : Fin 1024) :
    ((cfg0.win 8).blk t).view.emb (ix2 r n) = (ix2 ⟨128 * t.val + r.val, batchRow_lt0 t r⟩ n : S4096x1024.Idx) := by
  obtain ⟨-, -, -, -, e0, e1, -⟩ := index_rows0 t
  funext a
  apply Fin.ext
  match a with
  | ⟨0, _⟩ => show win0_8.index t (0 : Fin 2) * 128 + 1 * r.val = 128 * t.val + r.val; omega
  | ⟨1, _⟩ => show win0_8.index t (1 : Fin 2) * 1024 + 1 * n.val = n.val; omega

theorem emb0_9 (t : Fin cfg0.N) (r : Fin 128) (n : Fin 1024) :
    ((cfg0.win 9).blk t).view.emb (ix2 r n) = (ix2 ⟨128 * t.val + r.val, batchRow_lt0 t r⟩ n : S4096x1024.Idx) := by
  obtain ⟨-, -, -, -, -, -, e0, e1, -⟩ := index_rows0 t
  funext a
  apply Fin.ext
  match a with
  | ⟨0, _⟩ => show win0_9.index t (0 : Fin 2) * 128 + 1 * r.val = 128 * t.val + r.val; omega
  | ⟨1, _⟩ => show win0_9.index t (1 : Fin 2) * 1024 + 1 * n.val = n.val; omega

theorem emb0_10 (t : Fin cfg0.N) (r : Fin 128) (n : Fin 1024) :
    ((cfg0.win 10).blk t).view.emb (ix2 r n) = (ix2 ⟨128 * t.val + r.val, batchRow_lt0 t r⟩ n : S4096x1024.Idx) := by
  obtain ⟨-, -, -, -, -, -, -, -, e0, e1⟩ := index_rows0 t
  funext a
  apply Fin.ext
  match a with
  | ⟨0, _⟩ => show win0_10.index t (0 : Fin 2) * 128 + 1 * r.val = 128 * t.val + r.val; omega
  | ⟨1, _⟩ => show win0_10.index t (1 : Fin 2) * 1024 + 1 * n.val = n.val; omega

/-! ## What each point writes back -/

/-- Point t writes block t of the state array's function. -/
theorem flushed0_10_eq (c : Dev nD) (t : Fin cfg0.N) :
    (dat0 (F := Ideal) V c).flushed 10 t = ((cfg0.win 10).blk t).view.read (Elt Ideal) (state0 V c) := by
  show (cfg0.win 10).cut (grid0.coords t) ((dat0 (F := Ideal) V c).after 10 t) = _
  rw [after0_10]
  refine funext fun (y : S128x1024.Idx) => ?_
  obtain ⟨r, n, rfl⟩ : ∃ (r : Fin 128) (n : Fin 1024), y = ix2 r n := ⟨y 0, y 1, eq_ix2 y⟩
  show out0_10 (F := Ideal) (iblk0 V c 0 t) (iblk0 V c 1 t) (iblk0 V c 2 t) (iblk0 V c 3 t) (iblk0 V c 4 t) (iblk0 V c 5 t)
      (iblk0 V c 6 t) (iblk0 V c 7 t) (ix2 r n) = state0 V c (((cfg0.win 10).blk t).view.emb (ix2 r n))
  rw [Body0.out0_10_apply (iblk0 V c 0 t) (iblk0 V c 1 t) (iblk0 V c 2 t) (iblk0 V c 3 t) (iblk0 V c 4 t) (iblk0 V c 5 t)
      (iblk0 V c 6 t) (iblk0 V c 7 t) r n, emb0_10 t r n, row_blk0_0 V c t r, blk0_2 V c t, blk0_3 V c t]

/-- Point t writes block t of the hidden-state function into the first hidden-state array. -/
theorem flushed0_8_eq (c : Dev nD) (t : Fin cfg0.N) :
    (dat0 (F := Ideal) V c).flushed 8 t = ((cfg0.win 8).blk t).view.read (Elt Ideal) (hidden0 V c) := by
  show (cfg0.win 8).cut (grid0.coords t) ((dat0 (F := Ideal) V c).after 8 t) = _
  rw [after0_8]
  refine funext fun (y : S128x1024.Idx) => ?_
  obtain ⟨r, n, rfl⟩ : ∃ (r : Fin 128) (n : Fin 1024), y = ix2 r n := ⟨y 0, y 1, eq_ix2 y⟩
  show out0_8 (F := Ideal) (iblk0 V c 0 t) (iblk0 V c 1 t) (iblk0 V c 2 t) (iblk0 V c 3 t) (iblk0 V c 4 t) (iblk0 V c 5 t)
      (iblk0 V c 6 t) (iblk0 V c 7 t) (ix2 r n) = hidden0 V c (((cfg0.win 8).blk t).view.emb (ix2 r n))
  rw [Body0.out0_8_apply (iblk0 V c 0 t) (iblk0 V c 1 t) (iblk0 V c 2 t) (iblk0 V c 3 t) (iblk0 V c 4 t) (iblk0 V c 5 t)
      (iblk0 V c 6 t) (iblk0 V c 7 t) r n, emb0_8 t r n, row_blk0_0 V c t r, row_blk0_1 V c t r, blk0_2 V c t, blk0_3 V c t,
    blk0_4 V c t, blk0_5 V c t, blk0_6 V c t, blk0_7 V c t]

/-- Point t writes block t of the hidden-state function into the second hidden-state array. -/
theorem flushed0_9_eq (c : Dev nD) (t : Fin cfg0.N) :
    (dat0 (F := Ideal) V c).flushed 9 t = ((cfg0.win 9).blk t).view.read (Elt Ideal) (hidden0 V c) := by
  show (cfg0.win 9).cut (grid0.coords t) ((dat0 (F := Ideal) V c).after 9 t) = _
  rw [after0_9]
  refine funext fun (y : S128x1024.Idx) => ?_
  obtain ⟨r, n, rfl⟩ : ∃ (r : Fin 128) (n : Fin 1024), y = ix2 r n := ⟨y 0, y 1, eq_ix2 y⟩
  show out0_9 (F := Ideal) (iblk0 V c 0 t) (iblk0 V c 1 t) (iblk0 V c 2 t) (iblk0 V c 3 t) (iblk0 V c 4 t) (iblk0 V c 5 t)
      (iblk0 V c 6 t) (iblk0 V c 7 t) (ix2 r n) = hidden0 V c (((cfg0.win 9).blk t).view.emb (ix2 r n))
  rw [Body0.out0_9_apply (iblk0 V c 0 t) (iblk0 V c 1 t) (iblk0 V c 2 t) (iblk0 V c 3 t) (iblk0 V c 4 t) (iblk0 V c 5 t)
      (iblk0 V c 6 t) (iblk0 V c 7 t) r n, emb0_9 t r n, row_blk0_0 V c t r, row_blk0_1 V c t r, blk0_2 V c t, blk0_3 V c t,
    blk0_4 V c t, blk0_5 V c t, blk0_6 V c t, blk0_7 V c t]

/-! ## The blocks cover the arrays

An index of a 4096 x 1024 array is in point t's block exactly when each coordinate is in the block's range on its
axis; batch row i is in the block of point i / 128. -/

theorem mem_blk0_8 (t : Fin cfg0.N) (i : S4096x1024.Idx) :
    i ∈ ((cfg0.win 8).blk t).view.set ↔ ∀ a : Fin 2, win0_8.index t a * S128x1024.size a ≤ (i a).val ∧ (i a).val < win0_8.index t a * S128x1024.size a + S128x1024.size a := by
  show i ∈ ((View.whole main_v19_0).slice (win0_8.rect t)).set ↔ _
  rw [View.set_slice_whole, Rect.mem_set_unit]
  exact Iff.rfl

theorem mem_blk0_9 (t : Fin cfg0.N) (i : S4096x1024.Idx) :
    i ∈ ((cfg0.win 9).blk t).view.set ↔ ∀ a : Fin 2, win0_9.index t a * S128x1024.size a ≤ (i a).val ∧ (i a).val < win0_9.index t a * S128x1024.size a + S128x1024.size a := by
  show i ∈ ((View.whole main_v19_1).slice (win0_9.rect t)).set ↔ _
  rw [View.set_slice_whole, Rect.mem_set_unit]
  exact Iff.rfl

theorem mem_blk0_10 (t : Fin cfg0.N) (i : S4096x1024.Idx) :
    i ∈ ((cfg0.win 10).blk t).view.set ↔ ∀ a : Fin 2, win0_10.index t a * S128x1024.size a ≤ (i a).val ∧ (i a).val < win0_10.index t a * S128x1024.size a + S128x1024.size a := by
  show i ∈ ((View.whole main_v19_2).slice (win0_10.rect t)).set ↔ _
  rw [View.set_slice_whole, Rect.mem_set_unit]
  exact Iff.rfl

/-- The point whose 128 rows hold batch row i. -/
def pointOf0 (i : S4096x1024.Idx) : Fin cfg0.N := ⟨(i 0).val / 128, by
  have h : (i 0).val < 4096 := (i 0).isLt
  show (i 0).val / 128 < 32
  omega⟩

theorem covers0_8 (i : S4096x1024.Idx) : ∃ t : Fin cfg0.N, (cfg0.win 8).flush t = true ∧ i ∈ ((cfg0.win 8).blk t).view.set := by
  have h0 : (i 0).val < 4096 := (i 0).isLt
  have h1 : (i 1).val < 1024 := (i 1).isLt
  refine ⟨pointOf0 i, flush0_8 (pointOf0 i), ?_⟩
  obtain ⟨-, -, -, -, e0, e1, -⟩ := index_rows0 (pointOf0 i)
  have ev : (pointOf0 i).val = (i 0).val / 128 := rfl
  rw [mem_blk0_8]
  intro a
  match a with
  | ⟨0, _⟩ => show win0_8.index (pointOf0 i) (0 : Fin 2) * 128 ≤ (i 0).val ∧ (i 0).val < win0_8.index (pointOf0 i) (0 : Fin 2) * 128 + 128; omega
  | ⟨1, _⟩ => show win0_8.index (pointOf0 i) (1 : Fin 2) * 1024 ≤ (i 1).val ∧ (i 1).val < win0_8.index (pointOf0 i) (1 : Fin 2) * 1024 + 1024; omega

theorem covers0_9 (i : S4096x1024.Idx) : ∃ t : Fin cfg0.N, (cfg0.win 9).flush t = true ∧ i ∈ ((cfg0.win 9).blk t).view.set := by
  have h0 : (i 0).val < 4096 := (i 0).isLt
  have h1 : (i 1).val < 1024 := (i 1).isLt
  refine ⟨pointOf0 i, flush0_9 (pointOf0 i), ?_⟩
  obtain ⟨-, -, -, -, -, -, e0, e1, -⟩ := index_rows0 (pointOf0 i)
  have ev : (pointOf0 i).val = (i 0).val / 128 := rfl
  rw [mem_blk0_9]
  intro a
  match a with
  | ⟨0, _⟩ => show win0_9.index (pointOf0 i) (0 : Fin 2) * 128 ≤ (i 0).val ∧ (i 0).val < win0_9.index (pointOf0 i) (0 : Fin 2) * 128 + 128; omega
  | ⟨1, _⟩ => show win0_9.index (pointOf0 i) (1 : Fin 2) * 1024 ≤ (i 1).val ∧ (i 1).val < win0_9.index (pointOf0 i) (1 : Fin 2) * 1024 + 1024; omega

theorem covers0_10 (i : S4096x1024.Idx) : ∃ t : Fin cfg0.N, (cfg0.win 10).flush t = true ∧ i ∈ ((cfg0.win 10).blk t).view.set := by
  have h0 : (i 0).val < 4096 := (i 0).isLt
  have h1 : (i 1).val < 1024 := (i 1).isLt
  refine ⟨pointOf0 i, flush0_10 (pointOf0 i), ?_⟩
  obtain ⟨-, -, -, -, -, -, -, -, e0, e1⟩ := index_rows0 (pointOf0 i)
  have ev : (pointOf0 i).val = (i 0).val / 128 := rfl
  rw [mem_blk0_10]
  intro a
  match a with
  | ⟨0, _⟩ => show win0_10.index (pointOf0 i) (0 : Fin 2) * 128 ≤ (i 0).val ∧ (i 0).val < win0_10.index (pointOf0 i) (0 : Fin 2) * 128 + 128; omega
  | ⟨1, _⟩ => show win0_10.index (pointOf0 i) (1 : Fin 2) * 1024 ≤ (i 1).val ∧ (i 1).val < win0_10.index (pointOf0 i) (1 : Fin 2) * 1024 + 1024; omega

/-! ## The three arrays after the region -/

/-- The state array ends holding the bridge's output of each batch row, written twice. -/
theorem final0_10 (c : Dev nD) : (dat0 (F := Ideal) V c).arrAt 10 cfg0.N = fun i =>
    Cell.init (Cell.row (V c main_v10 : S4096x1024.Idx → EReal) (i 0)) (Cell.row (V c main_v0 : S512x1024.Idx → EReal))
      (Cell.rvec (V c main_v5 : S1x512.Idx → EReal)) (i 1) :=
  (dat0 (F := Ideal) V c).arrAt_eq_of_cover 10 (state0 V c) (fun t _ => flushed0_10_eq V c t) covers0_10

/-- The first hidden-state array ends holding the first cell's new hidden state of each batch row. -/
theorem final0_8 (c : Dev nD) : (dat0 (F := Ideal) V c).arrAt 8 cfg0.N = fun i =>
    Cell.cell (Cell.row (V c main_v18 : S4096x2048.Idx → EReal) (i 0))
      (Cell.init (Cell.row (V c main_v10 : S4096x1024.Idx → EReal) (i 0)) (Cell.row (V c main_v0 : S512x1024.Idx → EReal))
        (Cell.rvec (V c main_v5 : S1x512.Idx → EReal)))
      (Cell.row (V c main_v1 : S4096x2048.Idx → EReal)) (Cell.row (V c main_v2 : S4096x1024.Idx → EReal))
      (Cell.rvec (V c main_v6 : S1x4096.Idx → EReal)) (Cell.rvec (V c main_v7 : S1x4096.Idx → EReal)) (i 1) :=
  (dat0 (F := Ideal) V c).arrAt_eq_of_cover 8 (hidden0 V c) (fun t _ => flushed0_8_eq V c t) covers0_8

/-- The second hidden-state array ends holding the same. -/
theorem final0_9 (c : Dev nD) : (dat0 (F := Ideal) V c).arrAt 9 cfg0.N = fun i =>
    Cell.cell (Cell.row (V c main_v18 : S4096x2048.Idx → EReal) (i 0))
      (Cell.init (Cell.row (V c main_v10 : S4096x1024.Idx → EReal) (i 0)) (Cell.row (V c main_v0 : S512x1024.Idx → EReal))
        (Cell.rvec (V c main_v5 : S1x512.Idx → EReal)))
      (Cell.row (V c main_v1 : S4096x2048.Idx → EReal)) (Cell.row (V c main_v2 : S4096x1024.Idx → EReal))
      (Cell.rvec (V c main_v6 : S1x4096.Idx → EReal)) (Cell.rvec (V c main_v7 : S1x4096.Idx → EReal)) (i 1) :=
  (dat0 (F := Ideal) V c).arrAt_eq_of_cover 9 (hidden0 V c) (fun t _ => flushed0_9_eq V c t) covers0_9

end Cert.KernelIdeal.Final

end
-- ==== Proof.Body1.lean ====
/-
  The second region's body at one index of a block.

  A block is 128 batch rows. At row `r` and unit `n` the stored value is the second cell's new hidden state: its input
  row is row `r` of the first cell's hidden states, its hidden and memory rows both row `r` of the state array.
-/
import proofs.«137373_j18124761989796_2_alg».proof.Proof.Gen.KernelIdeal.Frame
import proofs.«137373_j18124761989796_2_alg».proof.Proof.Cell
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body1

open Idealize.ShloMosaic Idealize.ShloMosaic.ValueIdx Cert.KernelIdeal Cert.KernelIdeal.Gen
open scoped BigOperators

/-- The dimension numbers of both products: rows of the left operand against rows of the right. -/
abbrev D : DotDims S128x1024 S4096x1024 S128x4096 := dot_S128x1024_S4096x1024_S128x4096_1_1_0_0_n_n

/-- The left operand is read on the output's row: its axis 0 is the output's axis 0. -/
theorem lhs_row (j : S128x4096.Idx) (q : D.contr.Idx) : (D.lhsIdx j q 0).val = (j 0).val := by
  unfold DotDims.lhsIdx
  rw [dif_neg (show ¬(0 : Fin S128x1024.rank) ∈ D.lhsBatch by decide),
    dif_pos (show (0 : Fin S128x1024.rank) ∈ D.lhsNonContracting by decide)]
  rfl

/-- The right operand is read on the row numbered by the output's column: its axis 0 is the output's axis 1. -/
theorem rhs_row (j : S128x4096.Idx) (q : D.contr.Idx) : (D.rhsIdx j q 0).val = (j 1).val := by
  unfold DotDims.rhsIdx
  rw [dif_neg (show ¬(0 : Fin S4096x1024.rank) ∈ D.rhsBatch by decide),
    dif_pos (show (0 : Fin S4096x1024.rank) ∈ D.rhsNonContracting by decide)]
  rfl

/-- A product into the zero accumulator, at row `r` and column `g`: the sum over `k` of the left operand's row `r`
    against the right operand's row `g`. -/
theorem product_apply (l : FVec Ideal S128x1024 .bf16) (w : FVec Ideal S4096x1024 .bf16) (r : Fin 128) (g : Fin 4096) :
    matmul D none l w (constant (F := Ideal) S128x4096 .f32 0x00000000#32) (ix2 r g)
      = ∑ k : Fin 1024, l (ix2 r k) * w (ix2 g k) := by
  show FloatOps.matmul D none l w (constant (F := Ideal) S128x4096 .f32 0x00000000#32) (ix2 r g) = _
  rw [Ideal.matmul_constant_zero_apply, ← Equiv.sum_comp (contrEquiv1 D 1024 rfl rfl).symm]
  refine Finset.sum_congr rfl fun k _ => ?_
  have hk := contrEquiv1_symm_val D 1024 rfl rfl k
  have el : D.lhsIdx (ix2 r g) ((contrEquiv1 D 1024 rfl rfl).symm k) = ix2 r k := funext fun a => Fin.ext (by
    match a with
    | ⟨0, _⟩ => exact lhs_row _ _
    | ⟨1, _⟩ => exact (D.lhsIdx_val_of_single rfl _ _).trans hk)
  have er : D.rhsIdx (ix2 r g) ((contrEquiv1 D 1024 rfl rfl).symm k) = ix2 g k := funext fun a => Fin.ext (by
    match a with
    | ⟨0, _⟩ => exact rhs_row _ _
    | ⟨1, _⟩ => exact (D.rhsIdx_val_of_single rfl _ _).trans hk)
  rw [el, er]

/-- The four gates' pre-activations of a block at row `r`, column `g`: the two products, then the two biases, each bias
    one row laid under every row of the block. -/
theorem pre_apply (l1 l2 : FVec Ideal S128x1024 .bf16) (w1 w2 : FVec Ideal S4096x1024 .bf16)
    (b1 b2 : FVec Ideal S1x4096 .f32) (hb : S1x4096.Broadcasts S128x4096) (r : Fin 128) (g : Fin 4096) :
    addf (addf (addf (matmul D none l1 w1 (constant (F := Ideal) S128x4096 .f32 0x00000000#32))
                     (matmul D none l2 w2 (constant (F := Ideal) S128x4096 .f32 0x00000000#32)))
               (broadcastTo S128x4096 b1 hb)) (broadcastTo S128x4096 b2 hb) (ix2 r g)
      = Cell.pre (Cell.row l1 r) (Cell.row l2 r) (Cell.row w1) (Cell.row w2) (Cell.rvec b1) (Cell.rvec b2) g := by
  show ((matmul D none l1 w1 (constant (F := Ideal) S128x4096 .f32 0x00000000#32) (ix2 r g)
          + matmul D none l2 w2 (constant (F := Ideal) S128x4096 .f32 0x00000000#32) (ix2 r g))
        + broadcastTo S128x4096 b1 hb (ix2 r g)) + broadcastTo S128x4096 b2 hb (ix2 r g) = _
  rw [product_apply, product_apply, broadcastTo_1b_ab_apply b1 hb r g, broadcastTo_1b_ab_apply b2 hb r g]
  rfl

/-- The new hidden state of a block at row `r`, unit `n`, from the block of pre-activations `P` and the memory block
    `c`: the four gates of unit `n` are columns `n`, `1024 + n`, `2048 + n`, `3072 + n` of `P`. -/
theorem gates_apply (P : FVec Ideal S128x4096 .f32) (c : FVec Ideal S128x1024 .f32)
    (h0 : S128x4096.Slices ![0, 0] S128x1024) (h1 : S128x4096.Slices ![0, 1024] S128x1024)
    (h2 : S128x4096.Slices ![0, 2048] S128x1024) (h3 : S128x4096.Slices ![0, 3072] S128x1024)
    (r : Fin 128) (n : Fin 1024) :
    mulf (logistic (extractStridedSlice S128x1024 ![0, 3072] P h3))
      (tanh (addf (mulf (logistic (extractStridedSlice S128x1024 ![0, 1024] P h1)) c)
                  (mulf (logistic (extractStridedSlice S128x1024 ![0, 0] P h0))
                        (tanh (extractStridedSlice S128x1024 ![0, 2048] P h2))))) (ix2 r n)
      = Cell.out (fun g => P (ix2 r g)) (fun m => c (ix2 r m)) n := by
  show Ideal.logistic (extractStridedSlice S128x1024 ![0, 3072] P h3 (ix2 r n))
      * Ideal.tanh (Ideal.logistic (extractStridedSlice S128x1024 ![0, 1024] P h1 (ix2 r n)) * c (ix2 r n)
          + Ideal.logistic (extractStridedSlice S128x1024 ![0, 0] P h0 (ix2 r n))
            * Ideal.tanh (extractStridedSlice S128x1024 ![0, 2048] P h2 (ix2 r n))) = _
  rw [slice2_axis1_apply 3072 P h3 r n (Cell.go n) rfl, slice2_axis1_apply 1024 P h1 r n (Cell.gf n) rfl,
    slice2_axis1_apply 0 P h0 r n (Cell.gi n) (Nat.zero_add _).symm, slice2_axis1_apply 2048 P h2 r n (Cell.gg n) rfl]
  rfl

/-- The body's stored value at row `r`, unit `n`: a reshape to the same shape is the identity and a change of number
    format does not change an extended real, so the stored block is the gates of the pre-activations of the loaded
    blocks, the state block serving both as the hidden rows of the second product and as the memory rows. -/
theorem pay_apply (v0 : Vec Ideal S128x1024 .bf16) (v2 : Vec Ideal S128x1024 .f32) (v5 v7 : Vec Ideal S4096x1024 .bf16)
    (v12 v16 : Vec Ideal S1x4096 .f32) (r : Fin 128) (n : Fin 1024) :
    k1_pay1 (F := Ideal) v0 v2 v5 v7 v12 v16 (ix2 r n)
      = Cell.cell (Cell.row v0 r) (Cell.row v2 r) (Cell.row v5) (Cell.row v7) (Cell.rvec v12) (Cell.rvec v16) n := by
  unfold k1_pay1
  simp only [shapeCast_self]
  refine (gates_apply _ _ _ _ _ _ r n).trans ?_
  exact congrArg (fun p => Cell.out p (Cell.row v2 r) n) (funext fun g => pre_apply _ _ _ _ _ _ _ r g)

/-- The output block: row `r`, unit `n`. -/
theorem out1_6_apply (x0 : Vec Ideal S128x1024 .bf16) (x1 : Vec Ideal S128x1024 .f32) (x2 x3 : Vec Ideal S4096x1024 .bf16)
    (x4 x5 : Vec Ideal S1x4096 .f32) (r : Fin 128) (n : Fin 1024) :
    out1_6 (F := Ideal) x0 x1 x2 x3 x4 x5 (ix2 r n)
      = Cell.cell (Cell.row x0 r) (Cell.row x1 r) (Cell.row x2) (Cell.row x3) (Cell.rvec x4) (Cell.rvec x5) n := by
  have hz : (![0, 0] : Fin 2 → Nat) = fun _ => 0 := funext fun a => by fin_cases a <;> rfl
  unfold out1_6
  rw [View.canon_unit_zero hz]
  simp only [View.ld_unit_zero (S := S128x1024) hz, View.ld_unit_zero (S := S4096x1024) hz,
    View.ld_unit_zero (S := S1x4096) hz]
  exact pay_apply x0 x1 x2 x3 x4 x5 r n

end Cert.KernelIdeal.Body1

end
-- ==== Proof.Final1.lean ====
/-
  The second region's array after the region, batch row by batch row.

  The region runs over 32 points; point t handles batch rows 128 t ... 128 t + 127. The two row-blocked inputs give their
  128 rows, the weights and biases are whole at every point. The body at one index of a block is a function of those
  blocks, so what point t writes back is block t of ONE function of the region's input arrays; the 32 blocks cover the
  4096 rows, so the array ends holding that function. Stated at any contents of the arrays when the region is entered.
-/
import proofs.«137373_j18124761989796_2_alg».proof.Proof.Gen.KernelIdeal.Frame
import proofs.«137373_j18124761989796_2_alg».proof.Proof.Cell
import proofs.«137373_j18124761989796_2_alg».proof.Proof.Body1
import Idealize.ShloMosaic.Lib.Pipeline.Value
import Idealize.ShloMosaic.Lib.ValueIdx

noncomputable section

namespace Cert.KernelIdeal.Final

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The second region's index maps over its 32 points

A window over 128 batch rows per point sits at block row t and block column 0 at point t; a window over a whole
array sits at block (0, 0) at every point. -/

/-- The row-blocked windows (the two inputs and the output): block row t, block column 0. -/
theorem index_rows1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_6.index t (0 : Fin 2) = t.val ∧ win1_6.index t (1 : Fin 2) = 0 :=
  (by decide +kernel : ∀ t : Fin grid1.N, _)

/-- The whole-array windows (the weights and the biases): block (0, 0). -/
theorem index_whole1 : ∀ t : Fin cfg1.N,
    win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- Row r of the 128 rows at point t is batch row 128 t + r, one of the 4096. -/
theorem batchRow_lt1 (t : Fin cfg1.N) (r : Fin 128) : 128 * t.val + r.val < 4096 := by
  have ht : t.val < 32 := t.isLt
  have hr := r.isLt
  omega

/-! ## Each input block, read off its array -/

/-- Row r of the hidden-state block at point t is batch row 128 t + r of the first cell's hidden states. -/
theorem row_blk1_0 (c : Dev nD) (t : Fin cfg1.N) (r : Fin 128) :
    Cell.row (iblk1 (F := Ideal) V c 0 t : Vec Ideal S128x1024 .bf16) r
      = Cell.row (V c main_v19_1 : S4096x1024.Idx → EReal) ⟨128 * t.val + r.val, batchRow_lt1 t r⟩ := by
  obtain ⟨e0, e1, -⟩ := index_rows1 t
  funext k
  show V c main_v19_1 (((cfg1.win 0).blk t).view.emb (ix2 r k)) = V c main_v19_1 _
  congr 1
  funext a
  apply Fin.ext
  match a with
  | ⟨0, _⟩ => show win1_0.index t (0 : Fin 2) * 128 + 1 * r.val = 128 * t.val + r.val; omega
  | ⟨1, _⟩ => show win1_0.index t (1 : Fin 2) * 1024 + 1 * k.val = k.val; omega

/-- Row r of the state block at point t is batch row 128 t + r of the state array. -/
theorem row_blk1_1 (c : Dev nD) (t : Fin cfg1.N) (r : Fin 128) :
    Cell.row (iblk1 (F := Ideal) V c 1 t : Vec Ideal S128x1024 .f32) r
      = Cell.row (V c main_v19_2 : S4096x1024.Idx → EReal) ⟨128 * t.val + r.val, batchRow_lt1 t r⟩ := by
  obtain ⟨-, -, e0, e1, -⟩ := index_rows1 t
  funext k
  show V c main_v19_2 (((cfg1.win 1).blk t).view.emb (ix2 r k)) = V c main_v19_2 _
  congr 1
  funext a
  apply Fin.ext
  match a with
  | ⟨0, _⟩ => show win1_1.index t (0 : Fin 2) * 128 + 1 * r.val = 128 * t.val + r.val; omega
  | ⟨1, _⟩ => show win1_1.index t (1 : Fin 2) * 1024 + 1 * k.val = k.val; omega

/-- The cell's input-weight block at any point is the whole array. -/
theorem blk1_2 (c : Dev nD) (t : Fin cfg1.N) :
    (iblk1 (F := Ideal) V c 2 t : Vec Ideal S4096x1024 .bf16) = (V c main_v3 : S4096x1024.Idx → EReal) := by
  obtain ⟨e0, e1, -⟩ := index_whole1 t
  funext y
  show V c main_v3 (((cfg1.win 2).blk t).view.emb y) = V c main_v3 y
  congr 1
  funext a
  apply Fin.ext
  match a with
  | ⟨0, _⟩ => show win1_2.index t (0 : Fin 2) * 4096 + 1 * (y 0).val = (y 0).val; omega
  | ⟨1, _⟩ => show win1_2.index t (1 : Fin 2) * 1024 + 1 * (y 1).val = (y 1).val; omega

/-- The cell's hidden-weight block at any point is the whole array. -/
theorem blk1_3 (c : Dev nD) (t : Fin cfg1.N) :
    (iblk1 (F := Ideal) V c 3 t : Vec Ideal S4096x1024 .bf16) = (V c main_v4 : S4096x1024.Idx → EReal) := by
  obtain ⟨-, -, e0, e1, -⟩ := index_whole1 t
  funext y
  show V c main_v4 (((cfg1.win 3).blk t).view.emb y) = V c main_v4 y
  congr 1
  funext a
  apply Fin.ext
  match a with
  | ⟨0, _⟩ => show win1_3.index t (0 : Fin 2) * 4096 + 1 * (y 0).val = (y 0).val; omega
  | ⟨1, _⟩ => show win1_3.index t (1 : Fin 2) * 1024 + 1 * (y 1).val = (y 1).val; omega

/-- The cell's first bias block at any point is the whole bias row. -/
theorem blk1_4 (c : Dev nD) (t : Fin cfg1.N) :
    (iblk1 (F := Ideal) V c 4 t : Vec Ideal S1x4096 .f32) = (V c main_v8 : S1x4096.Idx → EReal) := by
  obtain ⟨-, -, -, -, e0, e1, -⟩ := index_whole1 t
  funext y
  show V c main_v8 (((cfg1.win 4).blk t).view.emb y) = V c main_v8 y
  congr 1
  funext a
  apply Fin.ext
  match a with
  | ⟨0, _⟩ => show win1_4.index t (0 : Fin 2) * 1 + 1 * (y 0).val = (y 0).val; omega
  | ⟨1, _⟩ => show win1_4.index t (1 : Fin 2) * 4096 + 1 * (y 1).val = (y 1).val; omega

/-- The cell's second bias block at any point is the whole bias row. -/
theorem blk1_5 (c : Dev nD) (t : Fin cfg1.N) :
    (iblk1 (F := Ideal) V c 5 t : Vec Ideal S1x4096 .f32) = (V c main_v9 : S1x4096.Idx → EReal) := by
  obtain ⟨-, -, -, -, -, -, e0, e1⟩ := index_whole1 t
  funext y
  show V c main_v9 (((cfg1.win 5).blk t).view.emb y) = V c main_v9 y
  congr 1
  funext a
  apply Fin.ext
  match a with
  | ⟨0, _⟩ => show win1_5.index t (0 : Fin 2) * 1 + 1 * (y 0).val = (y 0).val; omega
  | ⟨1, _⟩ => show win1_5.index t (1 : Fin 2) * 4096 + 1 * (y 1).val = (y 1).val; omega

/-! ## What the array ends holding, batch row by batch row -/

/-- The second cell's new hidden state of each batch row: its input row is the row of the first cell's hidden states,
    its hidden and memory rows both the row of the state array. -/
abbrev hidden1 (c : Dev nD) : S4096x1024.Idx → EReal := fun i =>
  Cell.cell (Cell.row (V c main_v19_1 : S4096x1024.Idx → EReal) (i 0)) (Cell.row (V c main_v19_2 : S4096x1024.Idx → EReal) (i 0))
    (Cell.row (V c main_v3 : S4096x1024.Idx → EReal)) (Cell.row (V c main_v4 : S4096x1024.Idx → EReal))
    (Cell.rvec (V c main_v8 : S1x4096.Idx → EReal)) (Cell.rvec (V c main_v9 : S1x4096.Idx → EReal)) (i 1)

/-- Where an output block's element sits in its array. -/
theorem emb1_6 (t : Fin cfg1.N) (r : Fin 128) (n : Fin 1024) :
    ((cfg1.win 6).blk t).view.emb (ix2 r n) = (ix2 ⟨128 * t.val + r.val, batchRow_lt1 t r⟩ n : S4096x1024.Idx) := by
  obtain ⟨-, -, -, -, e0, e1⟩ := index_rows1 t
  funext a
  apply Fin.ext
  match a with
  | ⟨0, _⟩ => show win1_6.index t (0 : Fin 2) * 128 + 1 * r.val = 128 * t.val + r.val; omega
  | ⟨1, _⟩ => show win1_6.index t (1 : Fin 2) * 1024 + 1 * n.val = n.val; omega

/-- Point t writes block t of that function. -/
theorem flushed1_6_eq (c : Dev nD) (t : Fin cfg1.N) :
    (dat1 (F := Ideal) V c).flushed 6 t = ((cfg1.win 6).blk t).view.read (Elt Ideal) (hidden1 V c) := by
  show (cfg1.win 6).cut (grid1.coords t) ((dat1 (F := Ideal) V c).after 6 t) = _
  rw [after1_6]
  refine funext fun (y : S128x1024.Idx) => ?_
  obtain ⟨r, n, rfl⟩ : ∃ (r : Fin 128) (n : Fin 1024), y = ix2 r n := ⟨y 0, y 1, eq_ix2 y⟩
  show out1_6 (F := Ideal) (iblk1 V c 0 t) (iblk1 V c 1 t) (iblk1 V c 2 t) (iblk1 V c 3 t) (iblk1 V c 4 t) (iblk1 V c 5 t)
      (ix2 r n) = hidden1 V c (((cfg1.win 6).blk t).view.emb (ix2 r n))
  rw [Body1.out1_6_apply (iblk1 V c 0 t) (iblk1 V c 1 t) (iblk1 V c 2 t) (iblk1 V c 3 t) (iblk1 V c 4 t) (iblk1 V c 5 t) r n,
    emb1_6 t r n, row_blk1_0 V c t r, row_blk1_1 V c t r, blk1_2 V c t, blk1_3 V c t, blk1_4 V c t, blk1_5 V c t]

/-! ## The blocks cover the array

An index of the 4096 x 1024 array is in point t's block exactly when each coordinate is in the block's range on its
axis; batch row i is in the block of point i / 128. -/

theorem mem_blk1_6 (t : Fin cfg1.N) (i : S4096x1024.Idx) :
    i ∈ ((cfg1.win 6).blk t).view.set ↔ ∀ a : Fin 2, win1_6.index t a * S128x1024.size a ≤ (i a).val ∧ (i a).val < win1_6.index t a * S128x1024.size a + S128x1024.size a := by
  show i ∈ ((View.whole main_v20).slice (win1_6.rect t)).set ↔ _
  rw [View.set_slice_whole, Rect.mem_set_unit]
  exact Iff.rfl

/-- The point whose 128 rows hold batch row i. -/
def pointOf1 (i : S4096x1024.Idx) : Fin cfg1.N := ⟨(i 0).val / 128, by
  have h : (i 0).val < 4096 := (i 0).isLt
  show (i 0).val / 128 < 32
  omega⟩

theorem covers1_6 (i : S4096x1024.Idx) : ∃ t : Fin cfg1.N, (cfg1.win 6).flush t = true ∧ i ∈ ((cfg1.win 6).blk t).view.set := by
  have h0 : (i 0).val < 4096 := (i 0).isLt
  have h1 : (i 1).val < 1024 := (i 1).isLt
  refine ⟨pointOf1 i, flush1_6 (pointOf1 i), ?_⟩
  obtain ⟨-, -, -, -, e0, e1⟩ := index_rows1 (pointOf1 i)
  have ev : (pointOf1 i).val = (i 0).val / 128 := rfl
  rw [mem_blk1_6]
  intro a
  match a with
  | ⟨0, _⟩ => show win1_6.index (pointOf1 i) (0 : Fin 2) * 128 ≤ (i 0).val ∧ (i 0).val < win1_6.index (pointOf1 i) (0 : Fin 2) * 128 + 128; omega
  | ⟨1, _⟩ => show win1_6.index (pointOf1 i) (1 : Fin 2) * 1024 ≤ (i 1).val ∧ (i 1).val < win1_6.index (pointOf1 i) (1 : Fin 2) * 1024 + 1024; omega

/-! ## The array after the region -/

/-- The result array ends holding the second cell's new hidden state of each batch row. -/
theorem final1_6 (c : Dev nD) : (dat1 (F := Ideal) V c).arrAt 6 cfg1.N = fun i =>
    Cell.cell (Cell.row (V c main_v19_1 : S4096x1024.Idx → EReal) (i 0)) (Cell.row (V c main_v19_2 : S4096x1024.Idx → EReal) (i 0))
      (Cell.row (V c main_v3 : S4096x1024.Idx → EReal)) (Cell.row (V c main_v4 : S4096x1024.Idx → EReal))
      (Cell.rvec (V c main_v8 : S1x4096.Idx → EReal)) (Cell.rvec (V c main_v9 : S1x4096.Idx → EReal)) (i 1) :=
  (dat1 (F := Ideal) V c).arrAt_eq_of_cover 6 (hidden1 V c) (fun t _ => flushed1_6_eq V c t) covers1_6

end Cert.KernelIdeal.Final

end
-- ==== Proof.Fold.lean ====
/-
  The two results of the idealized kernel as functions of the argument arrays.

  The first region leaves three arrays: the initial state `H0` (every batch row's bridge output written twice) and,
  twice (in two float formats, one extended real), the first cell's new hidden state `H1`. The second region reads
  those two and leaves the second cell's new hidden state `H2`. The first result is `H2`; the second is `H1` and `H2`
  stacked along a new leading axis. Each region's array is what its 32 blocks of 128 rows leave, and a block's row
  is the cell's function of that batch row of the arrays the region found at entry.
-/
import proofs.«137373_j18124761989796_2_alg».proof.Proof.Gen.KernelIdeal.Frame
import proofs.«137373_j18124761989796_2_alg».proof.Proof.Cell
import proofs.«137373_j18124761989796_2_alg».proof.Proof.Entry
import proofs.«137373_j18124761989796_2_alg».proof.Proof.LibStack2
import proofs.«137373_j18124761989796_2_alg».proof.Proof.Final0
import proofs.«137373_j18124761989796_2_alg».proof.Proof.Final1
import Idealize.ShloMosaic.Lib.StableHlo.Run
import Idealize.ShloMosaic.Lib.ValueIdx

set_option maxRecDepth 16384

noncomputable section

namespace Cert.KernelIdeal.Fold

open Idealize.ShloMosaic Idealize.ShloMosaic.TcCoe Idealize.ShloMosaic.Tactic Idealize.SL.Sem Idealize.ShloMosaic.StableHlo
open Idealize.ShloMosaic.ValueIdx
open Cert.KernelIdeal Cert.KernelIdeal.Gen

variable (m : (ℓ : Loc nD τ sig) → Buf (Elt Ideal) ℓ) (ρ : Dev nD → PrngReg)

/-- The first result as a function of the argument arrays: the second cell's new hidden state. -/
def res0 (c : Dev nD) : S4096x1024.Idx → EReal := fun i =>
  Cell.H2 (Entry.X (m ((c.tc : Thread nD τ).loc main_arg0)) (m ((c.tc : Thread nD τ).loc main_arg4))) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (i 0) (i 1)

/-- The second result: the first cell's new hidden state at leading coordinate 0, the second cell's at 1. -/
def res1 (c : Dev nD) : S2x4096x1024.Idx → EReal := fun i =>
  if (i 0).val = 0 then Cell.H1 (Entry.X (m ((c.tc : Thread nD τ).loc main_arg0)) (m ((c.tc : Thread nD τ).loc main_arg4))) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (i 1) (i 2)
  else Cell.H2 (Entry.X (m ((c.tc : Thread nD τ).loc main_arg0)) (m ((c.tc : Thread nD τ).loc main_arg4))) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (i 1) (i 2)

/-! ## The first region's three arrays -/

/-- The state array: `H0`. -/
theorem state_eq (c : Dev nD) :
    (dat0 (V1 m ρ) c).arrAt 10 cfg0.N = fun i => Cell.H0 (m ((c.tc : Thread nD τ).loc main_arg1)) (m ((c.tc : Thread nD τ).loc main_arg2)) (m ((c.tc : Thread nD τ).loc main_arg3)) (i 0) (i 1) := by
  rw [Final.final0_10]
  funext i
  rw [Entry.v10_eq, Entry.v0_eq, Entry.v5_eq]
  rfl

/-- The hidden-state array in the wide format: `H1`. -/
theorem hidden_eq (c : Dev nD) :
    (dat0 (V1 m ρ) c).arrAt 8 cfg0.N = fun i => Cell.H1 (Entry.X (m ((c.tc : Thread nD τ).loc main_arg0)) (m ((c.tc : Thread nD τ).loc main_arg4))) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (i 0) (i 1) := by
  rw [Final.final0_8]
  funext i
  rw [Entry.x_eq, Entry.v10_eq, Entry.v0_eq, Entry.v5_eq, Entry.v1_eq, Entry.v2_eq, Entry.v6_eq, Entry.v7_eq]
  rfl

/-- The hidden-state array in the narrow format: the same extended reals. -/
theorem hidden'_eq (c : Dev nD) :
    (dat0 (V1 m ρ) c).arrAt 9 cfg0.N = fun i => Cell.H1 (Entry.X (m ((c.tc : Thread nD τ).loc main_arg0)) (m ((c.tc : Thread nD τ).loc main_arg4))) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (i 0) (i 1) := by
  rw [Final.final0_9]
  funext i
  rw [Entry.x_eq, Entry.v10_eq, Entry.v0_eq, Entry.v5_eq, Entry.v1_eq, Entry.v2_eq, Entry.v6_eq, Entry.v7_eq]
  rfl

/-! ## What the second region finds, and leaves -/

theorem in_hidden (c : Dev nD) : V2 m ρ c main_v19_1 = fun i => Cell.H1 (Entry.X (m ((c.tc : Thread nD τ).loc main_arg0)) (m ((c.tc : Thread nD τ).loc main_arg4))) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (i 0) (i 1) :=
  (W2_arr m ρ c 9).trans (hidden'_eq m ρ c)

theorem in_state (c : Dev nD) : V2 m ρ c main_v19_2 = fun i => Cell.H0 (m ((c.tc : Thread nD τ).loc main_arg1)) (m ((c.tc : Thread nD τ).loc main_arg2)) (m ((c.tc : Thread nD τ).loc main_arg3)) (i 0) (i 1) :=
  (W2_arr m ρ c 10).trans (state_eq m ρ c)

theorem in_v3 (c : Dev nD) : V2 m ρ c main_v3 = V1 m ρ c main_v3 := W2_of_ne m ρ c main_v3 (by decide)
theorem in_v4 (c : Dev nD) : V2 m ρ c main_v4 = V1 m ρ c main_v4 := W2_of_ne m ρ c main_v4 (by decide)
theorem in_v8 (c : Dev nD) : V2 m ρ c main_v8 = V1 m ρ c main_v8 := W2_of_ne m ρ c main_v8 (by decide)
theorem in_v9 (c : Dev nD) : V2 m ρ c main_v9 = V1 m ρ c main_v9 := W2_of_ne m ρ c main_v9 (by decide)

/-- The second region's array: `H2`. -/
theorem out_eq (c : Dev nD) :
    (dat1 (V2 m ρ) c).arrAt 6 cfg1.N = fun i => Cell.H2 (Entry.X (m ((c.tc : Thread nD τ).loc main_arg0)) (m ((c.tc : Thread nD τ).loc main_arg4))) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (i 0) (i 1) := by
  rw [Final.final1_6]
  funext i
  rw [in_hidden, in_state, in_v3, in_v4, in_v8, in_v9, Entry.v3_eq, Entry.v4_eq, Entry.v8_eq, Entry.v9_eq]
  rfl

/-! ## The two results -/

/-- The first result is the second region's array. -/
theorem result0 (c : Dev nD) : W4 m ρ c (Proc.devRef .tc main_v20) = res0 m c :=
  calc W4 m ρ c (Proc.devRef .tc main_v20)
    _ = W3 m ρ c (Proc.devRef .tc main_v20) := StableHlo.after_of_forall_not_mem _ _ (List.forall_iff_forall_mem.mp (by
      simp only [hostOps2, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))
    _ = (dat1 (V2 m ρ) c).arrAt 6 cfg1.N := W3_arr m ρ c 6
    _ = _ := out_eq m ρ c

/-- The first region's wide hidden-state array is still there after the second region. -/
theorem hidden_kept (c : Dev nD) :
    W3 m ρ c (Proc.devRef .tc main_v19_0) = fun i => Cell.H1 (Entry.X (m ((c.tc : Thread nD τ).loc main_arg0)) (m ((c.tc : Thread nD τ).loc main_arg4))) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (i 0) (i 1) :=
  calc W3 m ρ c (Proc.devRef .tc main_v19_0)
    _ = W2 m ρ c (Proc.devRef .tc main_v19_0) := W3_of_ne m ρ c main_v19_0 (by decide)
    _ = (dat0 (V1 m ρ) c).arrAt 8 cfg0.N := W2_arr m ρ c 8
    _ = _ := hidden_eq m ρ c

/-- The second result: `H1` at leading coordinate 0, `H2` at 1. -/
theorem result1 (c : Dev nD) : W4 m ρ c (Proc.devRef .tc main_v23) = res1 m c := by
  have e : W4 m ρ c (Proc.devRef .tc main_v23)
      = concatenate S2x4096x1024 0
          [⟨S1x4096x1024, broadcastInDim S1x4096x1024 ![1, 2] bcast_S4096x1024_S1x4096x1024_1_2 (W3 m ρ c (Proc.devRef .tc main_v19_0))⟩,
           ⟨S1x4096x1024, broadcastInDim S1x4096x1024 ![1, 2] bcast_S4096x1024_S1x4096x1024_1_2 (W3 m ρ c (Proc.devRef .tc main_v20))⟩]
          concatenates_S1x4096x1024_S1x4096x1024_S2x4096x1024_d0 := by
    show StableHlo.after hostOps2 (W3 m ρ c) (Proc.devRef .tc main_v23) = _
    after_results
  rw [e]
  funext i
  rw [LibStack2.stack_apply, hidden_kept, (W3_arr m ρ c 6 : W3 m ρ c (Proc.devRef .tc main_v20) = _), out_eq]
  rfl

end Cert.KernelIdeal.Fold

end
-- ==== Proof.RefRows.lean ====
/-
  The reference computation read one batch row at a time.

  The reference forms each matrix product against a transposed weight, so its entry at row `b`, column `g` is
  `Σ_k l(b, k) · w(g, k)`: the sums of `Cell.bridge` and `Cell.pre`. A bias is a vector laid out as a one-row matrix
  and repeated down the rows, so at `(b, g)` it is the vector's entry `g`. The bridge's 512-wide result is written
  twice side by side, so column `n` of the initial state reads column `n mod 512` of the bridge. The four gates of
  unit `n` are the columns `n`, `1024 + n`, `2048 + n`, `3072 + n` of the pre-activation. The reference spells
  the logistic function as `1 / (1 + e^(-x))` with the constant one given by its bit pattern; that expression is the
  logistic function itself. The stacked result has the first cell's hidden state as slice 0 and the second's as slice 1.
  The embedding lookup is kept as one array throughout and never opened.
-/
import proofs.«137373_j18124761989796_2_alg».proof.Proof.RefRead
import proofs.«137373_j18124761989796_2_alg».proof.Proof.Cell

noncomputable section

namespace Cert.RefRows

open Cert.ReferenceIdeal Cert.ReferenceIdeal.Read Idealize.ShloMosaic Idealize.ShloMosaic.ValueIdx
open scoped BigOperators

/-! ## Two facts about the scalar operations -/

/-- The bit pattern `0x3F800000` is the number one. -/
theorem one_f32 : Ideal.ofBits .f32 0x3F800000#32 = 1 := by
  simp [Ideal.ofBits, Ideal.ieee, -EReal.coe_mul]; norm_num

/-- `1 / (1 + e^(-x))` is the logistic function. -/
theorem logistic_spelt (x : EReal) : Ideal.div 1 (1 + Ideal.exp (-x)) = Ideal.logistic x := rfl

/-! ## Where each stage reads its operands

Each equation says which entry of an operand the entry `(b, g)` of a result depends on. -/

-- the bridge: row `b` of the encoder state against row `j` of the weight, plus entry `j` of the bias
private theorem l1 (b : Fin 4096) (j : Fin 512) (k : Fin 1024) : lidx_main_v1 (ix2 b j) k = ix2 b k := funext fun a => Fin.ext (by match a with | ⟨0, _⟩ => rfl | ⟨1, _⟩ => rfl)
private theorem r1 (b : Fin 4096) (j : Fin 512) (k : Fin 1024) : idx_main_v0 (ridx_main_v1 (ix2 b j) k) = ix2 j k := funext fun a => Fin.ext (by match a with | ⟨0, _⟩ => rfl | ⟨1, _⟩ => rfl)
private theorem b3 (b : Fin 4096) (j : Fin 512) : idx_main_v2 (idx_main_v3 (ix2 b j)) = ix1 j := funext fun a => Fin.ext (by match a with | ⟨0, _⟩ => rfl)

-- the first cell: row `b` of the input and of the state against row `g` of each weight, entry `g` of each bias
private theorem l14 (b g : Fin 4096) (k : Fin 2048) : lidx_main_v14 (ix2 b g) k = ix2 b k := funext fun a => Fin.ext (by match a with | ⟨0, _⟩ => rfl | ⟨1, _⟩ => rfl)
private theorem r14 (b g : Fin 4096) (k : Fin 2048) : idx_main_v13 (ridx_main_v14 (ix2 b g) k) = ix2 g k := funext fun a => Fin.ext (by match a with | ⟨0, _⟩ => rfl | ⟨1, _⟩ => rfl)
private theorem l16 (b g : Fin 4096) (k : Fin 1024) : lidx_main_v16 (ix2 b g) k = ix2 b k := funext fun a => Fin.ext (by match a with | ⟨0, _⟩ => rfl | ⟨1, _⟩ => rfl)
private theorem r16 (b g : Fin 4096) (k : Fin 1024) : idx_main_v15 (ridx_main_v16 (ix2 b g) k) = ix2 g k := funext fun a => Fin.ext (by match a with | ⟨0, _⟩ => rfl | ⟨1, _⟩ => rfl)
private theorem b19 (b g : Fin 4096) : idx_main_v18 (idx_main_v19 (ix2 b g)) = ix1 g := funext fun a => Fin.ext (by match a with | ⟨0, _⟩ => rfl)
private theorem b22 (b g : Fin 4096) : idx_main_v21 (idx_main_v22 (ix2 b g)) = ix1 g := funext fun a => Fin.ext (by match a with | ⟨0, _⟩ => rfl)
-- its four gates
private theorem s24 (b : Fin 4096) (n : Fin 1024) : idx_main_v24 (ix2 b n) = ix2 b (Cell.gi n) := funext fun a => Fin.ext (by match a with | ⟨0, _⟩ => rfl | ⟨1, _⟩ => rfl)
private theorem s25 (b : Fin 4096) (n : Fin 1024) : idx_main_v25 (ix2 b n) = ix2 b (Cell.gf n) := funext fun a => Fin.ext (by match a with | ⟨0, _⟩ => rfl | ⟨1, _⟩ => rfl)
private theorem s26 (b : Fin 4096) (n : Fin 1024) : idx_main_v26 (ix2 b n) = ix2 b (Cell.gg n) := funext fun a => Fin.ext (by match a with | ⟨0, _⟩ => rfl | ⟨1, _⟩ => rfl)
private theorem s27 (b : Fin 4096) (n : Fin 1024) : idx_main_v27 (ix2 b n) = ix2 b (Cell.go n) := funext fun a => Fin.ext (by match a with | ⟨0, _⟩ => rfl | ⟨1, _⟩ => rfl)

-- the second cell
private theorem l53 (b g : Fin 4096) (k : Fin 1024) : lidx_main_v53 (ix2 b g) k = ix2 b k := funext fun a => Fin.ext (by match a with | ⟨0, _⟩ => rfl | ⟨1, _⟩ => rfl)
private theorem r53 (b g : Fin 4096) (k : Fin 1024) : idx_main_v52 (ridx_main_v53 (ix2 b g) k) = ix2 g k := funext fun a => Fin.ext (by match a with | ⟨0, _⟩ => rfl | ⟨1, _⟩ => rfl)
private theorem l55 (b g : Fin 4096) (k : Fin 1024) : lidx_main_v55 (ix2 b g) k = ix2 b k := funext fun a => Fin.ext (by match a with | ⟨0, _⟩ => rfl | ⟨1, _⟩ => rfl)
private theorem r55 (b g : Fin 4096) (k : Fin 1024) : idx_main_v54 (ridx_main_v55 (ix2 b g) k) = ix2 g k := funext fun a => Fin.ext (by match a with | ⟨0, _⟩ => rfl | ⟨1, _⟩ => rfl)
private theorem b58 (b g : Fin 4096) : idx_main_v57 (idx_main_v58 (ix2 b g)) = ix1 g := funext fun a => Fin.ext (by match a with | ⟨0, _⟩ => rfl)
private theorem b61 (b g : Fin 4096) : idx_main_v60 (idx_main_v61 (ix2 b g)) = ix1 g := funext fun a => Fin.ext (by match a with | ⟨0, _⟩ => rfl)
private theorem s63 (b : Fin 4096) (n : Fin 1024) : idx_main_v63 (ix2 b n) = ix2 b (Cell.gi n) := funext fun a => Fin.ext (by match a with | ⟨0, _⟩ => rfl | ⟨1, _⟩ => rfl)
private theorem s64 (b : Fin 4096) (n : Fin 1024) : idx_main_v64 (ix2 b n) = ix2 b (Cell.gf n) := funext fun a => Fin.ext (by match a with | ⟨0, _⟩ => rfl | ⟨1, _⟩ => rfl)
private theorem s65 (b : Fin 4096) (n : Fin 1024) : idx_main_v65 (ix2 b n) = ix2 b (Cell.gg n) := funext fun a => Fin.ext (by match a with | ⟨0, _⟩ => rfl | ⟨1, _⟩ => rfl)
private theorem s66 (b : Fin 4096) (n : Fin 1024) : idx_main_v66 (ix2 b n) = ix2 b (Cell.go n) := funext fun a => Fin.ext (by match a with | ⟨0, _⟩ => rfl | ⟨1, _⟩ => rfl)

-- the stack: slice 0 of a one-slice array is the array
private theorem u91 (b : Fin 4096) (n : Fin 1024) : idx_main_v91 (ix3 (0 : Fin 1) b n) = ix2 b n := funext fun a => Fin.ext (by match a with | ⟨0, _⟩ => rfl | ⟨1, _⟩ => rfl)
private theorem u92 (b : Fin 4096) (n : Fin 1024) : idx_main_v92 (ix3 (0 : Fin 1) b n) = ix2 b n := funext fun a => Fin.ext (by match a with | ⟨0, _⟩ => rfl | ⟨1, _⟩ => rfl)

variable (x0 : (⟨S4096, .i32⟩ : BufTy).Contents (Elt Ideal))
  (x1 : (⟨S4096x1024, .f32⟩ : BufTy).Contents (Elt Ideal))
  (x2 : (⟨S512x1024, .f32⟩ : BufTy).Contents (Elt Ideal))
  (x3 : (⟨S512, .f32⟩ : BufTy).Contents (Elt Ideal))
  (x4 : (⟨S32000x2048, .f32⟩ : BufTy).Contents (Elt Ideal))
  (x5 : (⟨S4096x2048, .f32⟩ : BufTy).Contents (Elt Ideal))
  (x6 : (⟨S4096x1024, .f32⟩ : BufTy).Contents (Elt Ideal))
  (x7 x8 : (⟨S4096, .f32⟩ : BufTy).Contents (Elt Ideal))
  (x9 x10 : (⟨S4096x1024, .f32⟩ : BufTy).Contents (Elt Ideal))
  (x11 x12 : (⟨S4096, .f32⟩ : BufTy).Contents (Elt Ideal))

/-! ## The initial state -/

/-- Column `n` of the bridge's result written twice is its column `n mod 512`. -/
theorem tile_ix (b : Fin 4096) (n : Fin 1024) :
    val_main_v5 (F := Ideal) x1 x2 x3 (ix2 b n) = val_main_v4 (F := Ideal) x1 x2 x3 (ix2 b (Cell.half n)) := by
  unfold val_main_v5
  generalize val_main_v4 (F := Ideal) x1 x2 x3 = v
  refine concatenate_replicate_apply (t := S4096x1024) (s₁ := S4096x512) 1 2 v _ rfl (ix2 b n) (ix2 b (Cell.half n)) rfl ?_
  intro c hc
  match c with
  | ⟨0, _⟩ => rfl
  | ⟨1, _⟩ => exact absurd rfl hc

/-- The initial state at row `b`, column `n`. -/
theorem h0_ix (b : Fin 4096) (n : Fin 1024) :
    val_main_v5 (F := Ideal) x1 x2 x3 (ix2 b n) = Cell.H0 x1 x2 x3 b n := by
  rw [tile_ix, val_main_v4_apply, val_main_v1_apply, val_main_v3_apply, val_main_v2_apply]
  simp only [val_main_v0_apply, l1, r1, b3]
  rfl

/-! ## The first cell -/

/-- Gate column `g` of the first cell before its nonlinearity, at row `b`. -/
theorem pre1_ix (b g : Fin 4096) :
    val_main_v23 (F := Ideal) x0 x1 x2 x3 x4 x5 x6 x7 x8 (ix2 b g)
      = Cell.pre (Cell.row (val_main_v12 (F := Ideal) x0 x4) b) (Cell.H0 x1 x2 x3 b) (Cell.row x5) (Cell.row x6) (Cell.vec x7) (Cell.vec x8) g := by
  simp only [val_main_v23_apply, val_main_v20_apply, val_main_v17_apply, val_main_v14_apply, val_main_v16_apply, val_main_v19_apply, val_main_v18_apply, val_main_v22_apply, val_main_v21_apply, val_main_v13_apply, val_main_v15_apply,
    l14, r14, l16, r16, b19, b22, h0_ix]
  generalize val_main_v12 (F := Ideal) x0 x4 = X
  rfl

/-- The first cell's hidden state at row `b`, unit `n`. -/
theorem h1_ix (b : Fin 4096) (n : Fin 1024) :
    val_main_v51 (F := Ideal) x0 x1 x2 x3 x4 x5 x6 x7 x8 (ix2 b n) = Cell.H1 (val_main_v12 (F := Ideal) x0 x4) x1 x2 x3 x5 x6 x7 x8 b n := by
  simp only [val_main_v51_apply, val_main_v45_apply, val_main_v44_apply, val_main_cst_5_apply, val_main_v43_apply, val_main_v42_apply, val_main_cst_4_apply, val_main_v41_apply, val_main_v40_apply, val_main_v27_apply, val_main_v50_apply, val_main_v49_apply, val_main_v47_apply, val_main_v39_apply, val_main_v38_apply, val_main_cst_3_apply, val_main_v37_apply, val_main_v36_apply, val_main_cst_2_apply, val_main_v35_apply, val_main_v34_apply, val_main_v25_apply, val_main_v48_apply, val_main_v33_apply, val_main_v32_apply, val_main_cst_1_apply, val_main_v31_apply, val_main_v30_apply, val_main_cst_apply, val_main_v29_apply, val_main_v28_apply, val_main_v24_apply, val_main_v46_apply, val_main_v26_apply,
    s24, s25, s26, s27, pre1_ix, h0_ix, Ideal.hostDivf_def, Ideal.addf_def, Ideal.mulf_def, Ideal.hostUnary_exp_def, Ideal.hostUnary_tanh_def, Ideal.hostNegf_def, Ideal.negf_def, Ideal.ofBits_def, one_f32, logistic_spelt]
  generalize val_main_v12 (F := Ideal) x0 x4 = X
  rfl

/-! ## The second cell -/

/-- Gate column `g` of the second cell before its nonlinearity, at row `b`: its input row is the first cell's
    hidden state, its state row the initial one. -/
theorem pre2_ix (b g : Fin 4096) :
    val_main_v62 (F := Ideal) x0 x1 x2 x3 x4 x5 x6 x7 x8 x9 x10 x11 x12 (ix2 b g)
      = Cell.pre (Cell.H1 (val_main_v12 (F := Ideal) x0 x4) x1 x2 x3 x5 x6 x7 x8 b) (Cell.H0 x1 x2 x3 b) (Cell.row x9) (Cell.row x10) (Cell.vec x11) (Cell.vec x12) g := by
  simp only [val_main_v62_apply, val_main_v59_apply, val_main_v56_apply, val_main_v53_apply, val_main_v55_apply, val_main_v58_apply, val_main_v57_apply, val_main_v61_apply, val_main_v60_apply, val_main_v52_apply, val_main_v54_apply,
    l53, r53, l55, r55, b58, b61, h1_ix, h0_ix]
  generalize val_main_v12 (F := Ideal) x0 x4 = X
  rfl

/-- The second cell's hidden state at row `b`, unit `n`. -/
theorem h2_ix (b : Fin 4096) (n : Fin 1024) :
    val_main_v90 (F := Ideal) x0 x1 x2 x3 x4 x5 x6 x7 x8 x9 x10 x11 x12 (ix2 b n) = Cell.H2 (val_main_v12 (F := Ideal) x0 x4) x1 x2 x3 x5 x6 x7 x8 x9 x10 x11 x12 b n := by
  simp only [val_main_v90_apply, val_main_v84_apply, val_main_v83_apply, val_main_cst_11_apply, val_main_v82_apply, val_main_v81_apply, val_main_cst_10_apply, val_main_v80_apply, val_main_v79_apply, val_main_v66_apply, val_main_v89_apply, val_main_v88_apply, val_main_v86_apply, val_main_v78_apply, val_main_v77_apply, val_main_cst_9_apply, val_main_v76_apply, val_main_v75_apply, val_main_cst_8_apply, val_main_v74_apply, val_main_v73_apply, val_main_v64_apply, val_main_v87_apply, val_main_v72_apply, val_main_v71_apply, val_main_cst_7_apply, val_main_v70_apply, val_main_v69_apply, val_main_cst_6_apply, val_main_v68_apply, val_main_v67_apply, val_main_v63_apply, val_main_v85_apply, val_main_v65_apply,
    s63, s64, s65, s66, pre2_ix, h0_ix, Ideal.hostDivf_def, Ideal.addf_def, Ideal.mulf_def, Ideal.hostUnary_exp_def, Ideal.hostUnary_tanh_def, Ideal.hostNegf_def, Ideal.negf_def, Ideal.ofBits_def, one_f32, logistic_spelt]
  generalize val_main_v12 (F := Ideal) x0 x4 = X
  rfl

/-! ## The stack of the two hidden states -/

/-- Slice `c` of the stack at row `b`, unit `n`: the first cell's hidden state for `c = 0`, the second's otherwise. -/
theorem stack_ix (c : Fin 2) (b : Fin 4096) (n : Fin 1024) :
    val_main_v93 (F := Ideal) x0 x1 x2 x3 x4 x5 x6 x7 x8 x9 x10 x11 x12 (ix3 c b n)
      = if c.val = 0 then Cell.H1 (val_main_v12 (F := Ideal) x0 x4) x1 x2 x3 x5 x6 x7 x8 b n else Cell.H2 (val_main_v12 (F := Ideal) x0 x4) x1 x2 x3 x5 x6 x7 x8 x9 x10 x11 x12 b n := by
  by_cases hc : c.val = 0
  · rw [if_pos hc, ← h1_ix, ← u91 b n, ← val_main_v91_apply]
    unfold val_main_v93
    generalize val_main_v91 (F := Ideal) x0 x1 x2 x3 x4 x5 x6 x7 x8 = u
    generalize val_main_v92 (F := Ideal) x0 x1 x2 x3 x4 x5 x6 x7 x8 x9 x10 x11 x12 = w
    refine concatenate_pair_apply_left (t := S2x4096x1024) (s₁ := S1x4096x1024) (s₂ := S1x4096x1024) 0 u w _ (ix3 c b n) rfl
      (ix3 (0 : Fin 1) b n) ?_
    intro a
    match a with
    | ⟨0, _⟩ => exact hc.symm
    | ⟨1, _⟩ => rfl
    | ⟨2, _⟩ => rfl
  · rw [if_neg hc, ← h2_ix, ← u92 b n, ← val_main_v92_apply]
    unfold val_main_v93
    generalize val_main_v91 (F := Ideal) x0 x1 x2 x3 x4 x5 x6 x7 x8 = u
    generalize val_main_v92 (F := Ideal) x0 x1 x2 x3 x4 x5 x6 x7 x8 x9 x10 x11 x12 = w
    refine concatenate_pair_apply_right (t := S2x4096x1024) (s₁ := S1x4096x1024) (s₂ := S1x4096x1024) 0 u w _ (ix3 c b n) rfl rfl
      (ix3 (0 : Fin 1) b n) ?_ ?_
    · intro a ha
      match a with
      | ⟨0, _⟩ => exact absurd rfl ha
      | ⟨1, _⟩ => rfl
      | ⟨2, _⟩ => rfl
    · show 0 + 1 = c.val
      have := c.isLt
      omega

/-! ## The four results at an arbitrary index -/

theorem h0_apply (i : S4096x1024.Idx) :
    val_main_v5 (F := Ideal) x1 x2 x3 i = Cell.H0 x1 x2 x3 (i 0) (i 1) := by
  obtain ⟨b, n, rfl⟩ : ∃ (b : Fin 4096) (n : Fin 1024), i = ix2 b n := ⟨i 0, i 1, eq_ix2 i⟩
  exact h0_ix x1 x2 x3 b n

theorem h1_apply (i : S4096x1024.Idx) :
    val_main_v51 (F := Ideal) x0 x1 x2 x3 x4 x5 x6 x7 x8 i = Cell.H1 (val_main_v12 (F := Ideal) x0 x4) x1 x2 x3 x5 x6 x7 x8 (i 0) (i 1) := by
  obtain ⟨b, n, rfl⟩ : ∃ (b : Fin 4096) (n : Fin 1024), i = ix2 b n := ⟨i 0, i 1, eq_ix2 i⟩
  exact h1_ix x0 x1 x2 x3 x4 x5 x6 x7 x8 b n

theorem out0_apply (i : S4096x1024.Idx) :
    val_main_v90 (F := Ideal) x0 x1 x2 x3 x4 x5 x6 x7 x8 x9 x10 x11 x12 i = Cell.H2 (val_main_v12 (F := Ideal) x0 x4) x1 x2 x3 x5 x6 x7 x8 x9 x10 x11 x12 (i 0) (i 1) := by
  obtain ⟨b, n, rfl⟩ : ∃ (b : Fin 4096) (n : Fin 1024), i = ix2 b n := ⟨i 0, i 1, eq_ix2 i⟩
  exact h2_ix x0 x1 x2 x3 x4 x5 x6 x7 x8 x9 x10 x11 x12 b n

theorem out1_apply (i : S2x4096x1024.Idx) :
    val_main_v93 (F := Ideal) x0 x1 x2 x3 x4 x5 x6 x7 x8 x9 x10 x11 x12 i
      = if (i 0).val = 0 then Cell.H1 (val_main_v12 (F := Ideal) x0 x4) x1 x2 x3 x5 x6 x7 x8 (i 1) (i 2) else Cell.H2 (val_main_v12 (F := Ideal) x0 x4) x1 x2 x3 x5 x6 x7 x8 x9 x10 x11 x12 (i 1) (i 2) := by
  obtain ⟨c, b, n, rfl⟩ : ∃ (c : Fin 2) (b : Fin 4096) (n : Fin 1024), i = ix3 c b n := ⟨i 0, i 1, i 2, eq_ix3 i⟩
  exact stack_ix x0 x1 x2 x3 x4 x5 x6 x7 x8 x9 x10 x11 x12 c b n

end Cert.RefRows

end
-- ==== Proof.RefRun.lean ====
/-
  The reference program's run, read against its stage functions.

  The reference is a straight line of 108 array operations. Its run leaves every buffer at the fold of the operations'
  results over the launch contents; this module reads that fold at the two results and at the thirteen arguments.
  The line is cut in four — the bridge with the token gather, the first cell, the second cell, the stacking of the two
  hidden states — and each part is read over an ARBITRARY valuation of the buffers, given only what it holds at the few
  buffers the part reads: the initial state, the gathered rows, the first cell's hidden state and the arguments. So no
  term ever holds more than one part's operations, and the parts compose by the fold's law for a concatenation.
-/
import proofs.«137373_j18124761989796_2_alg».proof.Proof.RefOps
import proofs.«137373_j18124761989796_2_alg».proof.Proof.RefRead
import Idealize.ShloMosaic.Lib.StableHlo.Run

noncomputable section

namespace Cert.RefRun

open Cert.ReferenceIdeal Cert.ReferenceIdeal.Gen Cert.ReferenceIdeal.Value Idealize.ShloMosaic Idealize.ShloMosaic.TcCoe Idealize.SL.Sem Idealize.ShloMosaic.StableHlo

/-- Running two lines one after the other is running their concatenation. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

/-! ## The four parts of the line -/

/-- Operations 1–15: the bridge (a linear map of the encoder state plus a bias, written twice) and the gather of the
    token rows. -/
def opsA : List (HloOp τ sig (Elt Ideal)) := (ops (F := Ideal)).take 15
/-- What follows the first part. -/
def restA : List (HloOp τ sig (Elt Ideal)) := (ops (F := Ideal)).drop 15
/-- Operations 16–60: the first cell. -/
def opsB : List (HloOp τ sig (Elt Ideal)) := restA.take 45
/-- What follows the second part. -/
def restB : List (HloOp τ sig (Elt Ideal)) := restA.drop 45
/-- Operations 61–105: the second cell. -/
def opsC : List (HloOp τ sig (Elt Ideal)) := restB.take 45
/-- Operations 106–108: the two hidden states stacked. -/
def opsD : List (HloOp τ sig (Elt Ideal)) := restB.drop 45

/-- The line is its four parts in order. -/
theorem ops_split : ops (F := Ideal) = opsA ++ (opsB ++ (opsC ++ opsD)) := by
  unfold opsA opsB opsC opsD
  rw [List.take_append_drop]
  unfold restB
  rw [List.take_append_drop]
  unfold restA
  rw [List.take_append_drop]

/-- Spells a part out as the literal list of its operations. -/
macro "open_part" : tactic =>
  `(tactic| simp only [opsA, opsB, opsC, opsD, restA, restB, ops, List.take_succ_cons, List.take_zero, List.drop_succ_cons, List.drop_zero])

variable (V : Valuation τ sig (Elt Ideal))
  (a0 : (⟨S4096, .i32⟩ : BufTy).Contents (Elt Ideal)) (a1 : (⟨S4096x1024, .f32⟩ : BufTy).Contents (Elt Ideal))
  (a2 : (⟨S512x1024, .f32⟩ : BufTy).Contents (Elt Ideal)) (a3 : (⟨S512, .f32⟩ : BufTy).Contents (Elt Ideal))
  (a4 : (⟨S32000x2048, .f32⟩ : BufTy).Contents (Elt Ideal)) (a5 : (⟨S4096x2048, .f32⟩ : BufTy).Contents (Elt Ideal))
  (a6 : (⟨S4096x1024, .f32⟩ : BufTy).Contents (Elt Ideal)) (a7 a8 : (⟨S4096, .f32⟩ : BufTy).Contents (Elt Ideal))
  (a9 a10 : (⟨S4096x1024, .f32⟩ : BufTy).Contents (Elt Ideal)) (a11 a12 : (⟨S4096, .f32⟩ : BufTy).Contents (Elt Ideal))

/-- The whole line's fold is the parts' folds composed. -/
theorem after_ops : after (ops (F := Ideal)) V = after opsD (after opsC (after opsB (after opsA V))) :=
  (congrArg (fun l => after l V) ops_split).trans
    ((after_append opsA _ V).trans ((after_append opsB _ _).trans (after_append opsC opsD _)))

/-! ## The first part: the initial state and the gathered rows -/

/-- The initial state, from the encoder states and the bridge's weight and bias. -/
theorem partA_state (h1 : V (Proc.devRef .tc main_arg1) = a1) (h2 : V (Proc.devRef .tc main_arg2) = a2) (h3 : V (Proc.devRef .tc main_arg3) = a3) :
    after opsA V (Proc.devRef .tc main_v5) = Read.val_main_v5 (F := Ideal) a1 a2 a3 := by
  open_part
  after_results
  rw [h1, h2, h3]
  rfl

/-- The gathered rows, from the tokens and the table. -/
theorem partA_rows (h0 : V (Proc.devRef .tc main_arg0) = a0) (h4 : V (Proc.devRef .tc main_arg4) = a4) :
    after opsA V (Proc.devRef .tc main_v12) = Read.val_main_v12 (F := Ideal) a0 a4 := by
  open_part
  after_results_simp
  rw [h0, h4]
  rfl

/-- The first part writes none of the cells' arguments. -/
theorem partA_keeps :
    after opsA V (Proc.devRef .tc main_arg5) = V (Proc.devRef .tc main_arg5) ∧ after opsA V (Proc.devRef .tc main_arg6) = V (Proc.devRef .tc main_arg6)
    ∧ after opsA V (Proc.devRef .tc main_arg7) = V (Proc.devRef .tc main_arg7) ∧ after opsA V (Proc.devRef .tc main_arg8) = V (Proc.devRef .tc main_arg8)
    ∧ after opsA V (Proc.devRef .tc main_arg9) = V (Proc.devRef .tc main_arg9) ∧ after opsA V (Proc.devRef .tc main_arg10) = V (Proc.devRef .tc main_arg10)
    ∧ after opsA V (Proc.devRef .tc main_arg11) = V (Proc.devRef .tc main_arg11) ∧ after opsA V (Proc.devRef .tc main_arg12) = V (Proc.devRef .tc main_arg12) := by
  open_part
  refine ⟨?_, ?_, ?_, ?_, ?_, ?_, ?_, ?_⟩ <;> after_results_simp

/-! ## The second part: the first cell -/

/-- The first cell's hidden state, from the initial state, the gathered rows and the cell's weights and biases. -/
theorem partB_hidden
    (h5 : V (Proc.devRef .tc main_v5) = Read.val_main_v5 (F := Ideal) a1 a2 a3)
    (h12 : V (Proc.devRef .tc main_v12) = Read.val_main_v12 (F := Ideal) a0 a4)
    (g5 : V (Proc.devRef .tc main_arg5) = a5) (g6 : V (Proc.devRef .tc main_arg6) = a6) (g7 : V (Proc.devRef .tc main_arg7) = a7) (g8 : V (Proc.devRef .tc main_arg8) = a8) :
    after opsB V (Proc.devRef .tc main_v51) = Read.val_main_v51 (F := Ideal) a0 a1 a2 a3 a4 a5 a6 a7 a8 := by
  open_part
  after_results_simp
  rw [h5, h12, g5, g6, g7, g8]
  rfl

/-- The second part writes neither the initial state nor the second cell's arguments. -/
theorem partB_keeps :
    after opsB V (Proc.devRef .tc main_v5) = V (Proc.devRef .tc main_v5)
    ∧ after opsB V (Proc.devRef .tc main_arg9) = V (Proc.devRef .tc main_arg9) ∧ after opsB V (Proc.devRef .tc main_arg10) = V (Proc.devRef .tc main_arg10)
    ∧ after opsB V (Proc.devRef .tc main_arg11) = V (Proc.devRef .tc main_arg11) ∧ after opsB V (Proc.devRef .tc main_arg12) = V (Proc.devRef .tc main_arg12) := by
  open_part
  refine ⟨?_, ?_, ?_, ?_, ?_⟩ <;> after_results_simp

/-! ## The third part: the second cell -/

/-- The second cell's hidden state, from the first cell's, the initial state and the cell's weights and biases. -/
theorem partC_hidden
    (h51 : V (Proc.devRef .tc main_v51) = Read.val_main_v51 (F := Ideal) a0 a1 a2 a3 a4 a5 a6 a7 a8)
    (h5 : V (Proc.devRef .tc main_v5) = Read.val_main_v5 (F := Ideal) a1 a2 a3)
    (g9 : V (Proc.devRef .tc main_arg9) = a9) (g10 : V (Proc.devRef .tc main_arg10) = a10) (g11 : V (Proc.devRef .tc main_arg11) = a11) (g12 : V (Proc.devRef .tc main_arg12) = a12) :
    after opsC V (Proc.devRef .tc main_v90) = Read.val_main_v90 (F := Ideal) a0 a1 a2 a3 a4 a5 a6 a7 a8 a9 a10 a11 a12 := by
  open_part
  after_results_simp
  rw [h51, h5, g9, g10, g11, g12]
  rfl

/-- The third part does not write the first cell's hidden state. -/
theorem partC_keeps : after opsC V (Proc.devRef .tc main_v51) = V (Proc.devRef .tc main_v51) := by
  open_part
  after_results_simp

/-! ## The fourth part: the two hidden states stacked -/

/-- The stack of the two cells' hidden states. -/
theorem partD_stack
    (h51 : V (Proc.devRef .tc main_v51) = Read.val_main_v51 (F := Ideal) a0 a1 a2 a3 a4 a5 a6 a7 a8)
    (h90 : V (Proc.devRef .tc main_v90) = Read.val_main_v90 (F := Ideal) a0 a1 a2 a3 a4 a5 a6 a7 a8 a9 a10 a11 a12) :
    after opsD V (Proc.devRef .tc main_v93) = Read.val_main_v93 (F := Ideal) a0 a1 a2 a3 a4 a5 a6 a7 a8 a9 a10 a11 a12 := by
  open_part
  after_results
  rw [h51, h90]
  rfl

/-- The fourth part does not write the second cell's hidden state. -/
theorem partD_keeps : after opsD V (Proc.devRef .tc main_v90) = V (Proc.devRef .tc main_v90) := by
  open_part
  after_results_simp

/-! ## The two results of the whole line -/

/-- From any contents whose arguments are `a0 … a12`, the line leaves the second cell's hidden state and the stack of
    the two hidden states at the stage functions of the arguments. -/
theorem results
    (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4)
    (h5 : V (Proc.devRef .tc main_arg5) = a5) (h6 : V (Proc.devRef .tc main_arg6) = a6) (h7 : V (Proc.devRef .tc main_arg7) = a7) (h8 : V (Proc.devRef .tc main_arg8) = a8) (h9 : V (Proc.devRef .tc main_arg9) = a9)
    (h10 : V (Proc.devRef .tc main_arg10) = a10) (h11 : V (Proc.devRef .tc main_arg11) = a11) (h12 : V (Proc.devRef .tc main_arg12) = a12) :
    after (ops (F := Ideal)) V (Proc.devRef .tc main_v90) = Read.val_main_v90 (F := Ideal) a0 a1 a2 a3 a4 a5 a6 a7 a8 a9 a10 a11 a12
    ∧ after (ops (F := Ideal)) V (Proc.devRef .tc main_v93) = Read.val_main_v93 (F := Ideal) a0 a1 a2 a3 a4 a5 a6 a7 a8 a9 a10 a11 a12 := by
  obtain ⟨k5, k6, k7, k8, k9, k10, k11, k12⟩ := partA_keeps V
  have s1 := partA_state V a1 a2 a3 h1 h2 h3
  have r1 := partA_rows V a0 a4 h0 h4
  obtain ⟨j5, j9, j10, j11, j12⟩ := partB_keeps (after opsA V)
  have hid1 := partB_hidden (after opsA V) a0 a1 a2 a3 a4 a5 a6 a7 a8 s1 r1
    (k5.trans h5) (k6.trans h6) (k7.trans h7) (k8.trans h8)
  have hid2 := partC_hidden (after opsB (after opsA V)) a0 a1 a2 a3 a4 a5 a6 a7 a8 a9 a10 a11 a12 hid1 (j5.trans s1)
    (j9.trans (k9.trans h9)) (j10.trans (k10.trans h10)) (j11.trans (k11.trans h11)) (j12.trans (k12.trans h12))
  have hid1' := (partC_keeps (after opsB (after opsA V))).trans hid1
  rw [after_ops]
  exact ⟨(partD_keeps _).trans hid2, partD_stack _ a0 a1 a2 a3 a4 a5 a6 a7 a8 a9 a10 a11 a12 hid1' hid2⟩

/-! ## The arguments -/

/-- No operation writes argument 0. -/
theorem keep_arg0 : after (ops (F := Ideal)) V (Proc.devRef .tc main_arg0) = V (Proc.devRef .tc main_arg0) := by
  after_results_simp

/-- No operation writes argument 1. -/
theorem keep_arg1 : after (ops (F := Ideal)) V (Proc.devRef .tc main_arg1) = V (Proc.devRef .tc main_arg1) := by
  after_results_simp

/-- No operation writes argument 2. -/
theorem keep_arg2 : after (ops (F := Ideal)) V (Proc.devRef .tc main_arg2) = V (Proc.devRef .tc main_arg2) := by
  after_results_simp

/-- No operation writes argument 3. -/
theorem keep_arg3 : after (ops (F := Ideal)) V (Proc.devRef .tc main_arg3) = V (Proc.devRef .tc main_arg3) := by
  after_results_simp

/-- No operation writes argument 4. -/
theorem keep_arg4 : after (ops (F := Ideal)) V (Proc.devRef .tc main_arg4) = V (Proc.devRef .tc main_arg4) := by
  after_results_simp

/-- No operation writes argument 5. -/
theorem keep_arg5 : after (ops (F := Ideal)) V (Proc.devRef .tc main_arg5) = V (Proc.devRef .tc main_arg5) := by
  after_results_simp

/-- No operation writes argument 6. -/
theorem keep_arg6 : after (ops (F := Ideal)) V (Proc.devRef .tc main_arg6) = V (Proc.devRef .tc main_arg6) := by
  after_results_simp

/-- No operation writes argument 7. -/
theorem keep_arg7 : after (ops (F := Ideal)) V (Proc.devRef .tc main_arg7) = V (Proc.devRef .tc main_arg7) := by
  after_results_simp

/-- No operation writes argument 8. -/
theorem keep_arg8 : after (ops (F := Ideal)) V (Proc.devRef .tc main_arg8) = V (Proc.devRef .tc main_arg8) := by
  after_results_simp

/-- No operation writes argument 9. -/
theorem keep_arg9 : after (ops (F := Ideal)) V (Proc.devRef .tc main_arg9) = V (Proc.devRef .tc main_arg9) := by
  after_results_simp

/-- No operation writes argument 10. -/
theorem keep_arg10 : after (ops (F := Ideal)) V (Proc.devRef .tc main_arg10) = V (Proc.devRef .tc main_arg10) := by
  after_results_simp

/-- No operation writes argument 11. -/
theorem keep_arg11 : after (ops (F := Ideal)) V (Proc.devRef .tc main_arg11) = V (Proc.devRef .tc main_arg11) := by
  after_results_simp

/-- No operation writes argument 12. -/
theorem keep_arg12 : after (ops (F := Ideal)) V (Proc.devRef .tc main_arg12) = V (Proc.devRef .tc main_arg12) := by
  after_results_simp

/-! ## The run -/

/-- From any memory with zero counters every weakly fair execution of the reference terminates, with the second
    cell's hidden state and the stack of the two hidden states at the stage functions of the arguments' launch contents,
    and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v90) = Read.val_main_v90 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v93) = Read.val_main_v93 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c =>
    have res := results (launchContents m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      rfl rfl rfl rfl rfl rfl rfl rfl rfl rfl rfl rfl rfl
    ⟨(h c main_v90).trans res.1, (h c main_v93).trans res.2,
      (h c main_arg0).trans (keep_arg0 (launchContents m c)),
      (h c main_arg1).trans (keep_arg1 (launchContents m c)),
      (h c main_arg2).trans (keep_arg2 (launchContents m c)),
      (h c main_arg3).trans (keep_arg3 (launchContents m c)),
      (h c main_arg4).trans (keep_arg4 (launchContents m c)),
      (h c main_arg5).trans (keep_arg5 (launchContents m c)),
      (h c main_arg6).trans (keep_arg6 (launchContents m c)),
      (h c main_arg7).trans (keep_arg7 (launchContents m c)),
      (h c main_arg8).trans (keep_arg8 (launchContents m c)),
      (h c main_arg9).trans (keep_arg9 (launchContents m c)),
      (h c main_arg10).trans (keep_arg10 (launchContents m c)),
      (h c main_arg11).trans (keep_arg11 (launchContents m c)),
      (h c main_arg12).trans (keep_arg12 (launchContents m c))⟩)
    (run_seq scopedRefs_eq scopedSems_eq defs main (fun _ => ops) main_eq (fun _ => ops_sub) m ρ)

end Cert.RefRun

end
-- ==== Proof.lean ====
/-
  The certificate: three frames, the (empty) idealization ledger, and the equality of the two idealized programs'
  results.

  Both idealized programs compute, for every batch row, the bridge's output written twice (`H0`), the first cell's new
  hidden state (`H1`) from the looked-up input row, and the second cell's (`H2`) from `H1`, both cells started from
  `H0` as hidden and memory state; the first result is `H2` and the second is `H1` and `H2` stacked. The kernel reaches
  these through two regions of 32 blocks of 128 rows (its matrix products into a zero accumulator, its `logistic`),
  the reference through whole-array host operations (its products against transposed weights, its sigmoid spelt
  `1 / (1 + exp (-x))`); on the extended reals these are the same terms, so no input needs to be finite.
-/
import proofs.«137373_j18124761989796_2_alg».proof.Defs
import proofs.«137373_j18124761989796_2_alg».proof.Proof.Gen.Kernel
import proofs.«137373_j18124761989796_2_alg».proof.Proof.Gen.Kernel.Skeleton
import proofs.«137373_j18124761989796_2_alg».proof.Proof.Gen.Kernel.Launch
import proofs.«137373_j18124761989796_2_alg».proof.Proof.Gen.Kernel.Points
import proofs.«137373_j18124761989796_2_alg».proof.Proof.Gen.Kernel.Frame
import proofs.«137373_j18124761989796_2_alg».proof.Proof.Gen.KernelIdeal
import proofs.«137373_j18124761989796_2_alg».proof.Proof.Gen.KernelIdeal.Skeleton
import proofs.«137373_j18124761989796_2_alg».proof.Proof.Gen.KernelIdeal.Launch
import proofs.«137373_j18124761989796_2_alg».proof.Proof.Gen.KernelIdeal.Points
import proofs.«137373_j18124761989796_2_alg».proof.Proof.Gen.KernelIdeal.Frame
import proofs.«137373_j18124761989796_2_alg».proof.Proof.Gen.ReferenceIdeal
import proofs.«137373_j18124761989796_2_alg».proof.Proof.Gen.Pre_finite_inputs
import proofs.«137373_j18124761989796_2_alg».proof.Proof.KRun
import proofs.«137373_j18124761989796_2_alg».proof.Proof.Fold
import proofs.«137373_j18124761989796_2_alg».proof.Proof.RefRows
import proofs.«137373_j18124761989796_2_alg».proof.Proof.RefRun
import Idealize.ShloMosaic.Adequacy
import Idealize.ShloMosaic.Init

set_option maxRecDepth 16384

noncomputable section

namespace Cert.Proof

open Idealize.ShloMosaic Idealize.ShloMosaic.TcCoe Idealize.SL.Sem

/-- Both programs look the input rows up with the same host operations: one function of the token indices and the
    embedding table. -/
theorem rows_eq (a0 : (⟨Cert.KernelIdeal.S4096, .i32⟩ : BufTy).Contents (Elt Ideal))
    (a4 : (⟨Cert.KernelIdeal.S32000x2048, .f32⟩ : BufTy).Contents (Elt Ideal)) :
    Cert.ReferenceIdeal.Read.val_main_v12 (F := Ideal) a0 a4 = Cert.KernelIdeal.Entry.X a0 a4 := rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.RefRun.run m ρ)

theorem preserves : Cert.preserves_Kernel_KernelIdeal := trivial

/-- From memories that agree on the arguments the reference's first result is the kernel's. -/
theorem ref0 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Cert.ReferenceIdeal.Read.val_main_v90 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))
      = Cert.KernelIdeal.Fold.res0 m c := by
  rw [h0, h1, h2, h3, h4, h5, h6, h7, h8, h9, h10, h11, h12]
  funext i
  rw [Cert.RefRows.out0_apply, rows_eq]
  rfl

/-- And its second result is the kernel's. -/
theorem ref1 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Cert.ReferenceIdeal.Read.val_main_v93 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))
      = Cert.KernelIdeal.Fold.res1 m c := by
  rw [h0, h1, h2, h3, h4, h5, h6, h7, h8, h9, h10, h11, h12]
  funext i
  rw [Cert.RefRows.out1_apply, rows_eq]
  rfl

/-- The two idealized programs, from memories agreeing on the arguments, end with the same two results. -/
theorem algebraic : Cert.algebraic_KernelIdeal_ReferenceIdeal := by
  intro m ρ m' ρ' _ hagree
  refine ⟨fun c => Cert.KernelIdeal.Fold.res0 m c, fun c => Cert.KernelIdeal.Fold.res1 m c, ?_, ?_⟩
  · exact (θ_run Cert.KernelIdeal.defs _ _).mono
      (fun _ h c => ⟨(h c).1.trans (Cert.KernelIdeal.Fold.result0 m ρ c),
        (h c).2.1.trans (Cert.KernelIdeal.Fold.result1 m ρ c), (h c).2.2⟩)
      (Cert.KernelIdeal.RunV.run m ρ)
  · refine (θ_run Cert.ReferenceIdeal.defs _ _).mono (fun _ h c => ?_) (Cert.RefRun.run m' ρ')
    obtain ⟨h0, h1, h2, h3, h4, h5, h6, h7, h8, h9, h10, h11, h12⟩ := hagree c
    exact ⟨(h c).1.trans (ref0 m m' c h0 h1 h2 h3 h4 h5 h6 h7 h8 h9 h10 h11 h12), (h c).2.1.trans (ref1 m m' c h0 h1 h2 h3 h4 h5 h6 h7 h8 h9 h10 h11 h12), (h c).2.2⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
